-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x64 : Shape := ⟨2, ![1200000, 64]⟩
abbrev S100000 : Shape := ⟨1, ![100000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S3x64x64 .f32) (main_arg7 : FVec F S3x64 .f32) (main_arg8 : FVec F S64x1 .f32) (main_arg9 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x1200000 32) (main_arg2 : FVec F S1200000x64 .f32) (main_arg3 : IVec S100000 32) (main_arg4 : FVec F S3x64x64 .f32) (main_arg5 : FVec F S3x64 .f32) (main_arg6 : FVec F S3x64x64 .f32) (main_arg7 : FVec F S3x64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg2
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_v13 main_v16
-- ==== Kernel.lean ====
abbrev S100000x64 : Shape := ⟨2, ![100000, 64]⟩
abbrev S2x1200000 : Shape := ⟨2, ![2, 1200000]⟩
abbrev S1200000x64 : Shape := ⟨2, ![1200000, 64]⟩
abbrev S100000 : Shape := ⟨1, ![100000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S9600x64 : Shape := ⟨2, ![9600, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S128x64 : Shape := ⟨2, ![128, 64]⟩
abbrev S100000x1 : Shape := ⟨2, ![100000, 1]⟩
abbrev S128x1 : Shape := ⟨2, ![128, 1]⟩
abbrev S1x1 : Shape := ⟨2, ![1, 1]⟩
abbrev S128 : Shape := ⟨1, ![128]⟩

abbrev nBuf : Space → Nat
  | .hbm => 98
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S100000, .i32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S3x64, .f32⟩
  | .hbm, ⟨8, _⟩ => ⟨S64x1, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .i32⟩
  | .hbm, ⟨15, _⟩ => ⟨S1200000, .i32⟩
  | .hbm, ⟨16, _⟩ => ⟨S1200000, .i1⟩
  | .hbm, ⟨17, _⟩ => ⟨S_, .i32⟩
  | .hbm, ⟨18, _⟩ => ⟨S1200000, .i32⟩
  | .hbm, ⟨19, _⟩ => ⟨S1200000, .i32⟩
  | .hbm, ⟨20, _⟩ => ⟨S1200000, .i32⟩
  | .hbm, ⟨21, _⟩ => ⟨S1200000x1, .i32⟩
  | .hbm, ⟨22, _⟩ => ⟨S1200000x64, .f32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S1x64x64, .f32⟩
  | .hbm, ⟨34, _⟩ => ⟨S64x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000x64, .f32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S1x64x64, .f32⟩
  | .hbm, ⟨54, _⟩ => ⟨S64x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64x64, .f32⟩
  | .hbm, ⟨59, _⟩ => ⟨S64x64, .f32⟩
  | .hbm, ⟨60, _⟩ => ⟨S1x64, .f32⟩
  | .hbm, ⟨61, _⟩ => ⟨S64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1200000, .i32⟩
  | .hbm, ⟨66, _⟩ => ⟨S1200000, .i1⟩
  | .hbm, ⟨67, _⟩ => ⟨S_, .i32⟩
  | .hbm, ⟨68, _⟩ => ⟨S1200000, .i32⟩
  | .hbm, ⟨69, _⟩ => ⟨S1200000, .i32⟩
  | .hbm, ⟨70, _⟩ => ⟨S1200000, .i32⟩
  | .hbm, ⟨71, _⟩ => ⟨S1200000x1, .i32⟩
  | .hbm, ⟨72, _⟩ => ⟨S1200000x64, .f32⟩
  | .hbm, ⟨73, _⟩ => ⟨S1200000x64, .f32⟩
  | .hbm, ⟨74, _⟩ => ⟨S_, .f32⟩
  | .hbm, ⟨75, _⟩ => ⟨S100000x64, .f32⟩
  | .hbm, ⟨76, _⟩ => ⟨S1200000x1, .i32⟩
  | .hbm, ⟨77, _⟩ => ⟨S100000x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S1x64x64, .f32⟩
  | .hbm, ⟨84, _⟩ => ⟨S64x64, .f32⟩
  | .hbm, ⟨85, _⟩ => ⟨S1x64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S_, .f32⟩
  | .hbm, ⟨90, _⟩ => ⟨S128x64, .f32⟩
  | .hbm, ⟨91, _⟩ => ⟨S100000x1, .i32⟩
  | .hbm, ⟨92, _⟩ => ⟨S128x64, .f32⟩
  | .hbm, ⟨93, _⟩ => ⟨S128x1, .f32⟩
  | .hbm, ⟨94, _⟩ => ⟨S1x1, .f32⟩
  | .hbm, ⟨95, _⟩ => ⟨S128x1, .f32⟩
  | .hbm, ⟨96, _⟩ => ⟨S128x1, .f32⟩
  | .hbm, ⟨97, _⟩ => ⟨S128, .f32⟩
  | .local _ .vmem, ⟨0, _⟩ => ⟨S9600x64, .f32⟩
  | .local _ .vmem, ⟨1, _⟩ => ⟨S9600x64, .f32⟩
  | .local _ .vmem, ⟨2, _⟩ => ⟨S9600x64, .f32⟩
  | .local _ .vmem, ⟨3, _⟩ => ⟨S9600x64, .f32⟩
  | .local _ .vmem, ⟨4, _⟩ => ⟨S9600x64, .f32⟩
  | .local _ .vmem, ⟨5, _⟩ => ⟨S9600x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S9600x64, .f32⟩
  | .local _ .vmem, ⟨17, _⟩ => ⟨S9600x64, .f32⟩
  | .local _ .vmem, ⟨18, _⟩ => ⟨S9600x64, .f32⟩
  | .local _ .vmem, ⟨19, _⟩ => ⟨S9600x64, .f32⟩
  | .local _ .vmem, ⟨20, _⟩ => ⟨S9600x64, .f32⟩
  | .local _ .vmem, ⟨21, _⟩ => ⟨S9600x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S9600x64, .f32⟩
  | .local _ .vmem, ⟨33, _⟩ => ⟨S9600x64, .f32⟩
  | .local _ .vmem, ⟨34, _⟩ => ⟨S9600x64, .f32⟩
  | .local _ .vmem, ⟨35, _⟩ => ⟨S9600x64, .f32⟩
  | .local _ .vmem, ⟨36, _⟩ => ⟨S9600x64, .f32⟩
  | .local _ .vmem, ⟨37, _⟩ => ⟨S9600x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_4 : Ref sig .tc := ⟨.hbm, 64, rfl⟩
abbrev main_v48 : Ref sig .tc := ⟨.hbm, 65, rfl⟩
abbrev main_v49 : Ref sig .tc := ⟨.hbm, 66, rfl⟩
abbrev main_c_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9600x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9600x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S9600x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S9600x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S9600x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S9600x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S9600x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S9600x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  inb_S9600x64_S9600x64_0_0 : ∀ a, (![0, 0] : Fin 2 → Nat) a + S9600x64.size a ≤ S9600x64.size a
  h_S9600x64 : 0 < S9600x64.numel
  shapeCasts_S9600x64_S9600x64 : S9600x64.ShapeCasts S9600x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9600x64.size a ≤ S1200000x64.size a
  hwx0_0 : ∀ i : grid0.Coords, EltTy.bits .f32 = 32 ∨ (Rect.block (s := S1200000x64) S9600x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9600x64.size a ≤ S1200000x64.size a
  hwx0_1 : ∀ i : grid0.Coords, EltTy.bits .f32 = 32 ∨ (Rect.block (s := S1200000x64) S9600x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9600x64.size a ≤ S1200000x64.size a
  hwx0_2 : ∀ i : grid0.Coords, EltTy.bits .f32 = 32 ∨ (Rect.block (s := S1200000x64) S9600x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S9600x64.size a ≤ S1200000x64.size a
  hwx2_0 : ∀ i : grid2.Coords, EltTy.bits .f32 = 32 ∨ (Rect.block (s := S1200000x64) S9600x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S9600x64.size a ≤ S1200000x64.size a
  hwx2_1 : ∀ i : grid2.Coords, EltTy.bits .f32 = 32 ∨ (Rect.block (s := S1200000x64) S9600x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S9600x64.size a ≤ S1200000x64.size a
  hwx2_2 : ∀ i : grid2.Coords, EltTy.bits .f32 = 32 ∨ (Rect.block (s := S1200000x64) S9600x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S9600x64.size a ≤ S1200000x64.size a
  hwx4_0 : ∀ i : grid4.Coords, EltTy.bits .f32 = 32 ∨ (Rect.block (s := S1200000x64) S9600x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S9600x64.size a ≤ S1200000x64.size a
  hwx4_1 : ∀ i : grid4.Coords, EltTy.bits .f32 = 32 ∨ (Rect.block (s := S1200000x64) S9600x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S9600x64.size a ≤ S1200000x64.size a
  hwx4_2 : ∀ i : grid4.Coords, EltTy.bits .f32 = 32 ∨ (Rect.block (s := S1200000x64) S9600x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v10) S9600x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9600x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S9600x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S9600x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S9600x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S9600x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v54) S9600x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S9600x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S9600x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v68) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v69) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x64 : Shape := ⟨2, ![1200000, 64]⟩
abbrev S100000 : Shape := ⟨1, ![100000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128x64 : Shape := ⟨2, ![128, 64]⟩
abbrev S100000x1 : Shape := ⟨2, ![100000, 1]⟩
abbrev S128x1 : Shape := ⟨2, ![128, 1]⟩
abbrev S1x1 : Shape := ⟨2, ![1, 1]⟩
abbrev S128 : Shape := ⟨1, ![128]⟩

abbrev nBuf : Space → Nat
  | .hbm => 143
  | .vmem => 0
  | .smem => 0
  | _ => 0

abbrev hbmTy0_0 (i : Nat) : BufTy := match i % 128 with
  | 0 => ⟨S100000x64, .f32⟩
  | 1 => ⟨S2x1200000, .i32⟩
  | 2 => ⟨S1200000x64, .f32⟩
  | 3 => ⟨S100000, .i32⟩
  | 4 => ⟨S3x64x64, .f32⟩
  | 5 => ⟨S3x64, .f32⟩
  | 6 => ⟨S3x64x64, .f32⟩
  | 7 => ⟨S3x64, .f32⟩
  | 8 => ⟨S64x1, .f32⟩
  | 9 => ⟨S1, .f32⟩
  | 10 => ⟨S1x1200000, .i32⟩
  | 11 => ⟨S1200000, .i32⟩
  | 12 => ⟨S1x1200000, .i32⟩
  | 13 => ⟨S1200000, .i32⟩
  | 14 => ⟨S_, .i32⟩
  | 15 => ⟨S1200000, .i32⟩
  | 16 => ⟨S1200000, .i1⟩
  | 17 => ⟨S_, .i32⟩
  | 18 => ⟨S1200000, .i32⟩
  | 19 => ⟨S1200000, .i32⟩
  | 20 => ⟨S1200000, .i32⟩
  | 21 => ⟨S1200000x1, .i32⟩
  | 22 => ⟨S1200000x64, .f32⟩
  | 23 => ⟨S1200000x64, .f32⟩
  | 24 => ⟨S_, .f32⟩
  | 25 => ⟨S1200000x64, .f32⟩
  | 26 => ⟨S1200000x64, .f32⟩
  | 27 => ⟨S_, .f32⟩
  | 28 => ⟨S100000x64, .f32⟩
  | 29 => ⟨S1200000x1, .i32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S1x64x64, .f32⟩
  | 44 => ⟨S64x64, .f32⟩
  | 45 => ⟨S100000x64, .f32⟩
  | 46 => ⟨S1x64, .f32⟩
  | 47 => ⟨S64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000x64, .f32⟩
  | 63 => ⟨S1200000x64, .f32⟩
  | 64 => ⟨S_, .f32⟩
  | 65 => ⟨S1200000x64, .f32⟩
  | 66 => ⟨S1200000x64, .f32⟩
  | 67 => ⟨S_, .f32⟩
  | 68 => ⟨S100000x64, .f32⟩
  | 69 => ⟨S1200000x1, .i32⟩
  | 70 => ⟨S100000x64, .f32⟩
  | 71 => ⟨S100000x64, .f32⟩
  | 72 => ⟨S1x64x64, .f32⟩
  | 73 => ⟨S64x64, .f32⟩
  | 74 => ⟨S100000x64, .f32⟩
  | 75 => ⟨S1x64, .f32⟩
  | 76 => ⟨S64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S_, .i32⟩
  | 95 => ⟨S1200000, .i32⟩
  | 96 => ⟨S1200000, .i1⟩
  | 97 => ⟨S_, .i32⟩
  | 98 => ⟨S1200000, .i32⟩
  | 99 => ⟨S1200000, .i32⟩
  | 100 => ⟨S1200000, .i32⟩
  | 101 => ⟨S1200000x1, .i32⟩
  | 102 => ⟨S1200000x64, .f32⟩
  | 103 => ⟨S1200000x64, .f32⟩
  | 104 => ⟨S_, .f32⟩
  | 105 => ⟨S1200000x64, .f32⟩
  | 106 => ⟨S1200000x64, .f32⟩
  | 107 => ⟨S_, .f32⟩
  | 108 => ⟨S100000x64, .f32⟩
  | 109 => ⟨S1200000x1, .i32⟩
  | 110 => ⟨S100000x64, .f32⟩
  | 111 => ⟨S100000x64, .f32⟩
  | 112 => ⟨S1x64x64, .f32⟩
  | 113 => ⟨S64x64, .f32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S_, .f32⟩
  | 7 => ⟨S128x64, .f32⟩
  | 8 => ⟨S100000x1, .i32⟩
  | 9 => ⟨S128x64, .f32⟩
  | 10 => ⟨S128x1, .f32⟩
  | 11 => ⟨S1x1, .f32⟩
  | 12 => ⟨S128x1, .f32⟩
  | 13 => ⟨S128x1, .f32⟩
  | 14 => ⟨S128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_cst : Ref sig .tc := ⟨.hbm, 51, rfl⟩
abbrev main_call2_v0 : Ref sig .tc := ⟨.hbm, 52, rfl⟩
abbrev main_v34 : Ref sig .tc := ⟨.hbm, 53, rfl⟩
abbrev main_c_1 : Ref sig .tc := ⟨.hbm, 54, rfl⟩
abbrev main_v35 : Ref sig .tc := ⟨.hbm, 55, rfl⟩
abbrev main_v36 : Ref sig .tc := ⟨.hbm, 56, rfl⟩
abbrev main_c_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call3_cst : Ref sig .tc := ⟨.hbm, 64, rfl⟩
abbrev main_call3_v0 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call4_cst : Ref sig .tc := ⟨.hbm, 80, rfl⟩
abbrev main_call4_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call5_cst : Ref sig .tc := ⟨.hbm, 91, rfl⟩
abbrev main_call5_v0 : Ref sig .tc := ⟨.hbm, 92, rfl⟩
abbrev main_v65 : Ref sig .tc := ⟨.hbm, 93, rfl⟩
abbrev main_c_4 : Ref sig .tc := ⟨.hbm, 94, rfl⟩
abbrev main_v66 : Ref sig .tc := ⟨.hbm, 95, rfl⟩
abbrev main_v67 : Ref sig .tc := ⟨.hbm, 96, rfl⟩
abbrev main_c_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call6_cst : Ref sig .tc := ⟨.hbm, 104, rfl⟩
abbrev main_call6_v0 : Ref sig .tc := ⟨.hbm, 105, rfl⟩
abbrev main_v74 : Ref sig .tc := ⟨.hbm, 106, rfl⟩
abbrev main_cst_6 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_call7_cst : Ref sig .tc := ⟨.hbm, 120, rfl⟩
abbrev main_call7_v0 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call8_cst : Ref sig .tc := ⟨.hbm, 131, rfl⟩
abbrev main_call8_v0 : Ref sig .tc := ⟨.hbm, 132, rfl⟩
abbrev main_v96 : Ref sig .tc := ⟨.hbm, 133, rfl⟩
abbrev main_cst_7 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x64 : S_.BroadcastsInDim S1200000x64 (![] : Fin 0 → Fin S1200000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x1_S128x1_1_0_0_1_n_n_wf : DotDims.WF S128x64 S64x1 S128x1 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.KernelRun.lean ====
/-
  The idealized kernel's run, with its result named.

  @main is six regions among seven stretches of host operations.  Every weakly fair execution terminates without
  a fault, and in the final state each buffer that outlives a region holds the value of the fold through @main:
  the launch memory pushed through each host stretch (every operation applied to what is there) and through each
  region (its arrays at what the write-backs leave).  Read at the returned buffer this names the result; read at
  the ten argument buffers it gives back the launch contents.  The statement is for any float instance.
-/
import proofs.«168259_j50096498540960_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the returned buffer ends at the fold's value there, the arguments as launched. -/
theorem run_result : θ_run defs (onTc (τ := τ) (main (F := F))) ⟨m, fun _ => 0, ρ⟩ (fun r => ∀ c : Dev nD,
      r.2.mem ((c.tc : Thread nD τ).loc main_v77) = W13 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v77 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.Run

end
-- ==== Proof.FoldKeep.lean ====
/-
  What a stretch of host operations, and what a region, leaves alone.

  The buffer contents at the boundaries of @main form a fold: a host stretch applies its operations in order, each
  writing its own result buffer; a region replaces the arrays of its output window by what the write-backs leave
  and keeps its input arrays and every other buffer.  So a buffer that a stretch does not write reads after the
  stretch what it read before, and a buffer other than a region's output array reads after the region what it
  read at its entry.  These are the steps by which a value is carried from the boundary where it is made to the
  boundary where it is used.
-/
import proofs.«168259_j50096498540960_1_alg».proof.Proof.Gen.KernelIdeal.Frame
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## Host stretches -/

/-- The buffers host stretch 0 writes. -/
def wr0 : List (Ref sig .tc) := [main_v0, main_v1, main_v2, main_v3, main_c, main_v4, main_v5, main_c_0, main_v6, main_v7, main_v8, main_v9, main_v10]

/-- A buffer host stretch 0 does not write reads after it what it read before. -/
theorem keepH0 (W : Valuation τ sig (Elt F)) (b : Ref sig .tc) (hb : b ∉ wr0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers host stretch 1 writes. -/
def wr1 : List (Ref sig .tc) := [main_cst, main_v12, main_v13, main_v14, main_v15, main_v16, main_v17, main_v18, main_v19, main_v20, main_v21, main_v22, main_v23, main_v24]

/-- A buffer host stretch 1 does not write reads after it what it read before. -/
theorem keepH1 (W : Valuation τ sig (Elt F)) (b : Ref sig .tc) (hb : b ∉ wr1) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers host stretch 2 writes. -/
def wr2 : List (Ref sig .tc) := [main_c_1, main_v26, main_v27, main_c_2, main_v28, main_v29, main_v30, main_v31, main_v32]

/-- A buffer host stretch 2 does not write reads after it what it read before. -/
theorem keepH2 (W : Valuation τ sig (Elt F)) (b : Ref sig .tc) (hb : b ∉ wr2) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers host stretch 3 writes. -/
def wr3 : List (Ref sig .tc) := [main_cst_3, main_v34, main_v35, main_v36, main_v37, main_v38, main_v39, main_v40, main_v41, main_v42, main_v43, main_v44, main_v45, main_v46]

/-- A buffer host stretch 3 does not write reads after it what it read before. -/
theorem keepH3 (W : Valuation τ sig (Elt F)) (b : Ref sig .tc) (hb : b ∉ wr3) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers host stretch 4 writes. -/
def wr4 : List (Ref sig .tc) := [main_c_4, main_v48, main_v49, main_c_5, main_v50, main_v51, main_v52, main_v53, main_v54]

/-- A buffer host stretch 4 does not write reads after it what it read before. -/
theorem keepH4 (W : Valuation τ sig (Elt F)) (b : Ref sig .tc) (hb : b ∉ wr4) :
    StableHlo.after hostOps4 W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers host stretch 5 writes. -/
def wr5 : List (Ref sig .tc) := [main_cst_6, main_v56, main_v57, main_v58, main_v59, main_v60, main_v61, main_v62, main_v63, main_v64, main_v65, main_v66, main_v67, main_v68]

/-- A buffer host stretch 5 does not write reads after it what it read before. -/
theorem keepH5 (W : Valuation τ sig (Elt F)) (b : Ref sig .tc) (hb : b ∉ wr5) :
    StableHlo.after hostOps5 W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The buffers host stretch 6 writes. -/
def wr6 : List (Ref sig .tc) := [main_cst_7, main_v70, main_v71, main_v72, main_v73, main_v74, main_v75, main_v76, main_v77]

/-- A buffer host stretch 6 does not write reads after it what it read before. -/
theorem keepH6 (W : Valuation τ sig (Elt F)) (b : Ref sig .tc) (hb : b ∉ wr6) :
    StableHlo.after hostOps6 W (Proc.devRef .tc b) = W (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-! ## Regions -/

/-- A buffer other than region 0's output array reads at its exit what it read at its entry: an input array is
    never written back, any other buffer is not the region's. -/
theorem keepR0 (b : Ref sig .tc) (hb : b ≠ main_v11) : W2 m ρ c (Proc.devRef .tc b) = W1 m ρ c (Proc.devRef .tc b) := by
  by_cases h0 : b = main_v10
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  refine W2_of_ne m ρ c b (fun w => ?_)
  match w with
  | ⟨0, _⟩ => exact fun e => h0 e.symm
  | ⟨1, _⟩ => exact fun e => h1 e.symm
  | ⟨2, _⟩ => exact fun e => hb e.symm

/-- A buffer other than region 1's output array reads at its exit what it read at its entry: an input array is
    never written back, any other buffer is not the region's. -/
theorem keepR1 (b : Ref sig .tc) (hb : b ≠ main_v25) : W4 m ρ c (Proc.devRef .tc b) = W3 m ρ c (Proc.devRef .tc b) := by
  by_cases h0 : b = main_arg0
  · subst h0; exact (W4_arr m ρ c 0).trans (((dat1 (V3 m ρ) c).arrAt_in 0 rfl _).trans (A_eq1 (V3 m ρ) c 0))
  by_cases h1 : b = main_v14
  · subst h1; exact (W4_arr m ρ c 1).trans (((dat1 (V3 m ρ) c).arrAt_in 1 rfl _).trans (A_eq1 (V3 m ρ) c 1))
  by_cases h2 : b = main_v16
  · subst h2; exact (W4_arr m ρ c 2).trans (((dat1 (V3 m ρ) c).arrAt_in 2 rfl _).trans (A_eq1 (V3 m ρ) c 2))
  by_cases h3 : b = main_v19
  · subst h3; exact (W4_arr m ρ c 3).trans (((dat1 (V3 m ρ) c).arrAt_in 3 rfl _).trans (A_eq1 (V3 m ρ) c 3))
  by_cases h4 : b = main_v21
  · subst h4; exact (W4_arr m ρ c 4).trans (((dat1 (V3 m ρ) c).arrAt_in 4 rfl _).trans (A_eq1 (V3 m ρ) c 4))
  by_cases h5 : b = main_v24
  · subst h5; exact (W4_arr m ρ c 5).trans (((dat1 (V3 m ρ) c).arrAt_in 5 rfl _).trans (A_eq1 (V3 m ρ) c 5))
  refine W4_of_ne m ρ c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

/-- A buffer other than region 2's output array reads at its exit what it read at its entry: an input array is
    never written back, any other buffer is not the region's. -/
theorem keepR2 (b : Ref sig .tc) (hb : b ≠ main_v33) : W6 m ρ c (Proc.devRef .tc b) = W5 m ρ c (Proc.devRef .tc b) := by
  by_cases h0 : b = main_v32
  · subst h0; exact (W6_arr m ρ c 0).trans (((dat2 (V5 m ρ) c).arrAt_in 0 rfl _).trans (A_eq2 (V5 m ρ) c 0))
  by_cases h1 : b = main_arg2
  · subst h1; exact (W6_arr m ρ c 1).trans (((dat2 (V5 m ρ) c).arrAt_in 1 rfl _).trans (A_eq2 (V5 m ρ) c 1))
  refine W6_of_ne m ρ c b (fun w => ?_)
  match w with
  | ⟨0, _⟩ => exact fun e => h0 e.symm
  | ⟨1, _⟩ => exact fun e => h1 e.symm
  | ⟨2, _⟩ => exact fun e => hb e.symm

/-- A buffer other than region 3's output array reads at its exit what it read at its entry: an input array is
    never written back, any other buffer is not the region's. -/
theorem keepR3 (b : Ref sig .tc) (hb : b ≠ main_v47) : W8 m ρ c (Proc.devRef .tc b) = W7 m ρ c (Proc.devRef .tc b) := by
  by_cases h0 : b = main_v25
  · subst h0; exact (W8_arr m ρ c 0).trans (((dat3 (V7 m ρ) c).arrAt_in 0 rfl _).trans (A_eq3 (V7 m ρ) c 0))
  by_cases h1 : b = main_v36
  · subst h1; exact (W8_arr m ρ c 1).trans (((dat3 (V7 m ρ) c).arrAt_in 1 rfl _).trans (A_eq3 (V7 m ρ) c 1))
  by_cases h2 : b = main_v38
  · subst h2; exact (W8_arr m ρ c 2).trans (((dat3 (V7 m ρ) c).arrAt_in 2 rfl _).trans (A_eq3 (V7 m ρ) c 2))
  by_cases h3 : b = main_v41
  · subst h3; exact (W8_arr m ρ c 3).trans (((dat3 (V7 m ρ) c).arrAt_in 3 rfl _).trans (A_eq3 (V7 m ρ) c 3))
  by_cases h4 : b = main_v43
  · subst h4; exact (W8_arr m ρ c 4).trans (((dat3 (V7 m ρ) c).arrAt_in 4 rfl _).trans (A_eq3 (V7 m ρ) c 4))
  by_cases h5 : b = main_v46
  · subst h5; exact (W8_arr m ρ c 5).trans (((dat3 (V7 m ρ) c).arrAt_in 5 rfl _).trans (A_eq3 (V7 m ρ) c 5))
  refine W8_of_ne m ρ c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

/-- A buffer other than region 4's output array reads at its exit what it read at its entry: an input array is
    never written back, any other buffer is not the region's. -/
theorem keepR4 (b : Ref sig .tc) (hb : b ≠ main_v55) : W10 m ρ c (Proc.devRef .tc b) = W9 m ρ c (Proc.devRef .tc b) := by
  by_cases h0 : b = main_v54
  · subst h0; exact (W10_arr m ρ c 0).trans (((dat4 (V9 m ρ) c).arrAt_in 0 rfl _).trans (A_eq4 (V9 m ρ) c 0))
  by_cases h1 : b = main_arg2
  · subst h1; exact (W10_arr m ρ c 1).trans (((dat4 (V9 m ρ) c).arrAt_in 1 rfl _).trans (A_eq4 (V9 m ρ) c 1))
  refine W10_of_ne m ρ c b (fun w => ?_)
  match w with
  | ⟨0, _⟩ => exact fun e => h0 e.symm
  | ⟨1, _⟩ => exact fun e => h1 e.symm
  | ⟨2, _⟩ => exact fun e => hb e.symm

/-- A buffer other than region 5's output array reads at its exit what it read at its entry: an input array is
    never written back, any other buffer is not the region's. -/
theorem keepR5 (b : Ref sig .tc) (hb : b ≠ main_v69) : W12 m ρ c (Proc.devRef .tc b) = W11 m ρ c (Proc.devRef .tc b) := by
  by_cases h0 : b = main_v47
  · subst h0; exact (W12_arr m ρ c 0).trans (((dat5 (V11 m ρ) c).arrAt_in 0 rfl _).trans (A_eq5 (V11 m ρ) c 0))
  by_cases h1 : b = main_v58
  · subst h1; exact (W12_arr m ρ c 1).trans (((dat5 (V11 m ρ) c).arrAt_in 1 rfl _).trans (A_eq5 (V11 m ρ) c 1))
  by_cases h2 : b = main_v60
  · subst h2; exact (W12_arr m ρ c 2).trans (((dat5 (V11 m ρ) c).arrAt_in 2 rfl _).trans (A_eq5 (V11 m ρ) c 2))
  by_cases h3 : b = main_v63
  · subst h3; exact (W12_arr m ρ c 3).trans (((dat5 (V11 m ρ) c).arrAt_in 3 rfl _).trans (A_eq5 (V11 m ρ) c 3))
  by_cases h4 : b = main_v65
  · subst h4; exact (W12_arr m ρ c 4).trans (((dat5 (V11 m ρ) c).arrAt_in 4 rfl _).trans (A_eq5 (V11 m ρ) c 4))
  by_cases h5 : b = main_v68
  · subst h5; exact (W12_arr m ρ c 5).trans (((dat5 (V11 m ρ) c).arrAt_in 5 rfl _).trans (A_eq5 (V11 m ρ) c 5))
  refine W12_of_ne m ρ c b (fun w => ?_)
  match w with
  | ⟨0, _⟩ => exact fun e => h0 e.symm
  | ⟨1, _⟩ => exact fun e => h1 e.symm
  | ⟨2, _⟩ => exact fun e => h2 e.symm
  | ⟨3, _⟩ => exact fun e => h3 e.symm
  | ⟨4, _⟩ => exact fun e => h4 e.symm
  | ⟨5, _⟩ => exact fun e => h5 e.symm
  | ⟨6, _⟩ => exact fun e => hb e.symm

end Cert.KernelIdeal.Fold

end
-- ==== Proof.Layers.lean ====
/-
  The two dense stages of one message-passing layer, as functions of whole arrays.

  A layer of the network takes the node features x (100000 nodes, 64 channels), gathers the source node's row for
  each of the 1200000 edges, forms the edge message relu (x_src + e), sums the messages that land on each node, and
  passes  h = x + aggregate  through  relu (relu (h · W1 + b1) · W2 + b2).
  Here are the two stages that the kernel computes block by block: the edge message and the node update,
  each written once over the whole arrays, with the host's own operations (the elementwise sum and maximum,
  the matrix product, the row bias repeated down the rows).
-/
import proofs.«168259_j50096498540960_1_alg».proof.Proof.Gen.ReferenceIdeal
import Idealize.ShloMosaic.PureOps.Ideal

noncomputable section

namespace Cert.Gine

open Idealize.ShloMosaic Cert.ReferenceIdeal Cert.ReferenceIdeal.Facts₀

/-- The edge message: relu (x_src + e), entry by entry, over all edges and channels. -/
def edgeMessage (xs e : FVec Ideal S1200000x64 .f32) : FVec Ideal S1200000x64 .f32 :=
  maximumf (addf xs e) (broadcastInDim S1200000x64 ![] bcast_S_S1200000x64 (constant (F := Ideal) S_ .f32 0x00000000#32))

/-- The node update: relu (relu ((x + aggr) · W1 + b1) · W2 + b2), the biases given as 1 × 64 rows that are repeated
    down the 100000 rows. -/
def nodeUpdate (x aggr : FVec Ideal S100000x64 .f32) (w1 : FVec Ideal S64x64 .f32) (b1 : FVec Ideal S1x64 .f32)
    (w2 : FVec Ideal S64x64 .f32) (b2 : FVec Ideal S1x64 .f32) : FVec Ideal S100000x64 .f32 :=
  maximumf (addf (Host.dotGeneral dot_S100000x64_S64x64_S100000x64_1_0_0_1_n_n none
      (maximumf (addf (Host.dotGeneral dot_S100000x64_S64x64_S100000x64_1_0_0_1_n_n none (addf x aggr) w1)
          (broadcastInDim S100000x64 ![0, 1] bcast_S1x64_S100000x64_0_1 b1))
        (broadcastInDim S100000x64 ![] bcast_S_S100000x64 (constant (F := Ideal) S_ .f32 0x00000000#32))) w2)
      (broadcastInDim S100000x64 ![0, 1] bcast_S1x64_S100000x64_0_1 b2))
    (broadcastInDim S100000x64 ![] bcast_S_S100000x64 (constant (F := Ideal) S_ .f32 0x00000000#32))

end Cert.Gine

end
-- ==== Proof.Network.lean ====
/-
  The whole network as one function of its arrays.

  Three message-passing layers and a readout.  A layer maps the node features x to
      nodeUpdate x (aggregate (edgeMessage (rows of x at the source nodes) e)) W1 b1 W2 b2 ,
  where the source row of each edge is gathered at edge_index[0] (a negative index wrapped by the node count)
  and the messages are summed into the rows named by edge_index[1].  The readout sums the node features of each
  graph (the rows named by batch), multiplies by the 64 × 1 output weight, adds the output bias and drops the
  unit axis.  Every step is the host's own operation on whole arrays; nothing is read at an index here.
-/
import proofs.«168259_j50096498540960_1_alg».proof.Proof.Layers

noncomputable section

namespace Cert.Gine

open Idealize.ShloMosaic Cert.ReferenceIdeal Cert.ReferenceIdeal.Facts₀

/-- Row 0 of edge_index as a vector of 1200000 words. -/
def srcWords (ei : Vec Ideal S2x1200000 .i32) : Vec Ideal S1200000 .i32 :=
  shapeCast _ (extractStridedSlice S1x1200000 ![0, 0] ei slices_S2x1200000_S1x1200000_0_0) shapeCasts_S1x1200000_S1200000

/-- The source nodes as a 1200000 × 1 column of start indices: a negative word has the node count added. -/
def srcColumn (ei : Vec Ideal S2x1200000 .i32) : Vec Ideal S1200000x1 .i32 :=
  broadcastInDim S1200000x1 ![0] bcast_S1200000_S1200000x1_0
    (select (cmpi .slt (srcWords ei) (broadcastInDim S1200000 ![] bcast_S_S1200000 (constantI S_ 32 0#32)))
      (addi (srcWords ei) (broadcastInDim S1200000 ![] bcast_S_S1200000 (constantI S_ 32 100000#32))) (srcWords ei))

/-- The destination nodes (row 1 of edge_index) as a 1200000 × 1 column. -/
def dstColumn (ei : Vec Ideal S2x1200000 .i32) : Vec Ideal S1200000x1 .i32 :=
  broadcastInDim S1200000x1 ![0] bcast_S1200000_S1200000x1_0
    (shapeCast _ (extractStridedSlice S1x1200000 ![1, 0] ei slices_S2x1200000_S1x1200000_1_0) shapeCasts_S1x1200000_S1200000)

/-- The rows of x at the source nodes, one per edge. -/
def sourceRows (ei : Vec Ideal S2x1200000 .i32) (x : FVec Ideal S100000x64 .f32) : FVec Ideal S1200000x64 .f32 :=
  Host.gather gather_S100000x64_S1200000x1_S1200000x64_1_0_n_n_0_1_164 x (srcColumn ei)

/-- The messages summed into their destination rows, from the zero array. -/
def aggregate (ei : Vec Ideal S2x1200000 .i32) (msg : FVec Ideal S1200000x64 .f32) : FVec Ideal S100000x64 .f32 :=
  Host.scatterAdd scatter_S100000x64_S1200000x1_S1200000x64_1_0_0_1
    (broadcastInDim S100000x64 ![] bcast_S_S100000x64 (constant (F := Ideal) S_ .f32 0x00000000#32)) (dstColumn ei) msg

/-- One layer. -/
def layer (ei : Vec Ideal S2x1200000 .i32) (e : FVec Ideal S1200000x64 .f32)
    (w1 : FVec Ideal S64x64 .f32) (b1 : FVec Ideal S1x64 .f32) (w2 : FVec Ideal S64x64 .f32) (b2 : FVec Ideal S1x64 .f32)
    (x : FVec Ideal S100000x64 .f32) : FVec Ideal S100000x64 .f32 :=
  nodeUpdate x (aggregate ei (edgeMessage (sourceRows ei x) e)) w1 b1 w2 b2

/-- The readout: per-graph sums of the node features, times the output weight, plus the output bias. -/
def readout (batch : Vec Ideal S100000 .i32) (wout : FVec Ideal S64x1 .f32) (bout : FVec Ideal S1 .f32)
    (x : FVec Ideal S100000x64 .f32) : FVec Ideal S128 .f32 :=
  shapeCast _ (addf (Host.dotGeneral dot_S128x64_S64x1_S128x1_1_0_0_1_n_n none
      (Host.scatterAdd scatter_S128x64_S100000x1_S100000x64_1_0_0_1
        (broadcastInDim S128x64 ![] bcast_S_S128x64 (constant (F := Ideal) S_ .f32 0x00000000#32))
        (broadcastInDim S100000x1 ![0] bcast_S100000_S100000x1_0 batch) x) wout)
    (broadcastInDim S128x1 ![0, 1] bcast_S1x1_S128x1_0_1 (broadcastInDim S1x1 ![1] bcast_S1_S1x1_1 bout))) shapeCasts_S128x1_S128

/-- The network: three layers, each with its own weights and bias rows, then the readout. -/
def network (x : FVec Ideal S100000x64 .f32) (ei : Vec Ideal S2x1200000 .i32) (e : FVec Ideal S1200000x64 .f32)
    (batch : Vec Ideal S100000 .i32)
    (w1a : FVec Ideal S64x64 .f32) (b1a : FVec Ideal S1x64 .f32) (w2a : FVec Ideal S64x64 .f32) (b2a : FVec Ideal S1x64 .f32)
    (w1b : FVec Ideal S64x64 .f32) (b1b : FVec Ideal S1x64 .f32) (w2b : FVec Ideal S64x64 .f32) (b2b : FVec Ideal S1x64 .f32)
    (w1c : FVec Ideal S64x64 .f32) (b1c : FVec Ideal S1x64 .f32) (w2c : FVec Ideal S64x64 .f32) (b2c : FVec Ideal S1x64 .f32)
    (wout : FVec Ideal S64x1 .f32) (bout : FVec Ideal S1 .f32) : FVec Ideal S128 .f32 :=
  readout batch wout bout (layer ei e w1c b1c w2c b2c (layer ei e w1b b1b w2b b2b (layer ei e w1a b1a w2a b2a x)))

/-- Layer l's 64 × 64 weight out of the stacked 3 × 64 × 64 array. -/
def weight0 (w : FVec Ideal S3x64x64 .f32) : FVec Ideal S64x64 .f32 :=
  shapeCast _ (extractStridedSlice S1x64x64 ![0, 0, 0] w slices_S3x64x64_S1x64x64_0_0_0) shapeCasts_S1x64x64_S64x64
def weight1 (w : FVec Ideal S3x64x64 .f32) : FVec Ideal S64x64 .f32 :=
  shapeCast _ (extractStridedSlice S1x64x64 ![1, 0, 0] w slices_S3x64x64_S1x64x64_1_0_0) shapeCasts_S1x64x64_S64x64
def weight2 (w : FVec Ideal S3x64x64 .f32) : FVec Ideal S64x64 .f32 :=
  shapeCast _ (extractStridedSlice S1x64x64 ![2, 0, 0] w slices_S3x64x64_S1x64x64_2_0_0) shapeCasts_S1x64x64_S64x64

/-- Layer l's bias as a vector of 64 entries out of the stacked 3 × 64 array. -/
def bias0 (b : FVec Ideal S3x64 .f32) : FVec Ideal S64 .f32 :=
  shapeCast _ (extractStridedSlice S1x64 ![0, 0] b slices_S3x64_S1x64_0_0) shapeCasts_S1x64_S64
def bias1 (b : FVec Ideal S3x64 .f32) : FVec Ideal S64 .f32 :=
  shapeCast _ (extractStridedSlice S1x64 ![1, 0] b slices_S3x64_S1x64_1_0) shapeCasts_S1x64_S64
def bias2 (b : FVec Ideal S3x64 .f32) : FVec Ideal S64 .f32 :=
  shapeCast _ (extractStridedSlice S1x64 ![2, 0] b slices_S3x64_S1x64_2_0) shapeCasts_S1x64_S64

/-- A vector of 64 entries as a 1 × 64 row. -/
def asRow (v : FVec Ideal S64 .f32) : FVec Ideal S1x64 .f32 := broadcastInDim S1x64 ![1] bcast_S64_S1x64_1 v

end Cert.Gine

end
-- ==== Proof.NetworkSteps.lean ====
/-
  The network's host steps, split where the kernel's program splits them.

  The kernel computes the index words once and reuses them in every layer, and hands each bias to its region as a
  1 × 64 row made by a change of shape.  Here the gather and the scatter-add are written over the index WORDS
  (rather than over edge_index), so that each of the kernel's host stretches is one of these functions of what the
  stretch reads; the layer functions of the network are these, composed.
-/
import proofs.«168259_j50096498540960_1_alg».proof.Proof.Network

noncomputable section

namespace Cert.Gine

open Idealize.ShloMosaic Cert.ReferenceIdeal Cert.ReferenceIdeal.Facts₀

/-- Row 1 of edge_index as a vector of 1200000 words. -/
def dstWords (ei : Vec Ideal S2x1200000 .i32) : Vec Ideal S1200000 .i32 :=
  shapeCast _ (extractStridedSlice S1x1200000 ![1, 0] ei slices_S2x1200000_S1x1200000_1_0) shapeCasts_S1x1200000_S1200000

/-- A vector of index words as a 1200000 × 1 column. -/
def columnOf (w : Vec Ideal S1200000 .i32) : Vec Ideal S1200000x1 .i32 :=
  broadcastInDim S1200000x1 ![0] bcast_S1200000_S1200000x1_0 w

/-- A negative index word has the node count added. -/
def wrapped (w : Vec Ideal S1200000 .i32) : Vec Ideal S1200000 .i32 :=
  select (cmpi .slt w (broadcastInDim S1200000 ![] bcast_S_S1200000 (constantI S_ 32 0#32)))
    (addi w (broadcastInDim S1200000 ![] bcast_S_S1200000 (constantI S_ 32 100000#32))) w

/-- The rows of x named by a vector of (possibly negative) index words. -/
def gatherRows (x : FVec Ideal S100000x64 .f32) (w : Vec Ideal S1200000 .i32) : FVec Ideal S1200000x64 .f32 :=
  Host.gather gather_S100000x64_S1200000x1_S1200000x64_1_0_n_n_0_1_164 x (columnOf (wrapped w))

/-- The messages summed into the rows named by a vector of index words, from the zero array. -/
def sumInto (w : Vec Ideal S1200000 .i32) (msg : FVec Ideal S1200000x64 .f32) : FVec Ideal S100000x64 .f32 :=
  Host.scatterAdd scatter_S100000x64_S1200000x1_S1200000x64_1_0_0_1
    (broadcastInDim S100000x64 ![] bcast_S_S100000x64 (constant (F := Ideal) S_ .f32 0x00000000#32)) (columnOf w) msg

theorem sourceRows_eq (ei : Vec Ideal S2x1200000 .i32) (x : FVec Ideal S100000x64 .f32) :
    sourceRows ei x = gatherRows x (srcWords ei) := rfl

theorem aggregate_eq (ei : Vec Ideal S2x1200000 .i32) (msg : FVec Ideal S1200000x64 .f32) :
    aggregate ei msg = sumInto (dstWords ei) msg := rfl

/-- One layer over the index words. -/
theorem layer_eq (ei : Vec Ideal S2x1200000 .i32) (e : FVec Ideal S1200000x64 .f32)
    (w1 : FVec Ideal S64x64 .f32) (b1 : FVec Ideal S1x64 .f32) (w2 : FVec Ideal S64x64 .f32) (b2 : FVec Ideal S1x64 .f32)
    (x : FVec Ideal S100000x64 .f32) :
    layer ei e w1 b1 w2 b2 x
      = nodeUpdate x (sumInto (dstWords ei) (edgeMessage (gatherRows x (srcWords ei)) e)) w1 b1 w2 b2 := rfl

theorem casts_S64_S1x64 : S64.ShapeCasts S1x64 := by decide

/-- A vector of 64 entries as a 1 × 64 row, by a change of shape. -/
def rowOf (v : FVec Ideal S64 .f32) : FVec Ideal S1x64 .f32 := shapeCast S1x64 v casts_S64_S1x64

end Cert.Gine

end
-- ==== Proof.FoldHost.lean ====
/-
  What each host stretch of the kernel's program computes, as a function of what it reads.

  A host stretch is a short straight line of array operations.  Read at one of its result buffers, the fold through
  the stretch is that operation applied to the contents the stretch found at its operands — which are the
  network's host steps: the index words out of edge_index, the gather of the source rows, the scatter-add into the
  destination rows, a layer's weights and bias rows out of the stacked arrays, and the readout.
-/
import proofs.«168259_j50096498540960_1_alg».proof.Proof.Gen.KernelIdeal.Frame
import proofs.«168259_j50096498540960_1_alg».proof.Proof.NetworkSteps
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable (W : Valuation τ sig (Elt Ideal))

/-! ## Stretch 0: the index words and the first gather -/

theorem read0_v1 : StableHlo.after hostOps0 W (Proc.devRef .tc main_v1) = Cert.Gine.srcWords (W (Proc.devRef .tc main_arg1)) := by
  after_results <;> rfl
theorem read0_v3 : StableHlo.after hostOps0 W (Proc.devRef .tc main_v3) = Cert.Gine.dstWords (W (Proc.devRef .tc main_arg1)) := by
  after_results <;> rfl
theorem read0_v10 : StableHlo.after hostOps0 W (Proc.devRef .tc main_v10)
    = Cert.Gine.gatherRows (W (Proc.devRef .tc main_arg0)) (Cert.Gine.srcWords (W (Proc.devRef .tc main_arg1))) := by
  after_results <;> rfl

/-! ## Stretch 1: layer 0's aggregate, weights and bias rows -/

theorem read1_v14 : StableHlo.after hostOps1 W (Proc.devRef .tc main_v14)
    = Cert.Gine.sumInto (W (Proc.devRef .tc main_v3)) (W (Proc.devRef .tc main_v11)) := by
  after_results <;> rfl
theorem read1_v16 : StableHlo.after hostOps1 W (Proc.devRef .tc main_v16) = Cert.Gine.weight0 (W (Proc.devRef .tc main_arg4)) := by
  after_results <;> rfl
theorem read1_v19 : StableHlo.after hostOps1 W (Proc.devRef .tc main_v19) = Cert.Gine.rowOf (Cert.Gine.bias0 (W (Proc.devRef .tc main_arg5))) := by
  after_results <;> rfl
theorem read1_v21 : StableHlo.after hostOps1 W (Proc.devRef .tc main_v21) = Cert.Gine.weight0 (W (Proc.devRef .tc main_arg6)) := by
  after_results <;> rfl
theorem read1_v24 : StableHlo.after hostOps1 W (Proc.devRef .tc main_v24) = Cert.Gine.rowOf (Cert.Gine.bias0 (W (Proc.devRef .tc main_arg7))) := by
  after_results <;> rfl

/-! ## Stretch 2: the gather of the source rows -/

theorem read2_v32 : StableHlo.after hostOps2 W (Proc.devRef .tc main_v32)
    = Cert.Gine.gatherRows (W (Proc.devRef .tc main_v25)) (W (Proc.devRef .tc main_v1)) := by
  after_results <;> rfl

/-! ## Stretch 3: layer 1's aggregate, weights and bias rows -/

theorem read3_v36 : StableHlo.after hostOps3 W (Proc.devRef .tc main_v36)
    = Cert.Gine.sumInto (W (Proc.devRef .tc main_v3)) (W (Proc.devRef .tc main_v33)) := by
  after_results <;> rfl
theorem read3_v38 : StableHlo.after hostOps3 W (Proc.devRef .tc main_v38) = Cert.Gine.weight1 (W (Proc.devRef .tc main_arg4)) := by
  after_results <;> rfl
theorem read3_v41 : StableHlo.after hostOps3 W (Proc.devRef .tc main_v41) = Cert.Gine.rowOf (Cert.Gine.bias1 (W (Proc.devRef .tc main_arg5))) := by
  after_results <;> rfl
theorem read3_v43 : StableHlo.after hostOps3 W (Proc.devRef .tc main_v43) = Cert.Gine.weight1 (W (Proc.devRef .tc main_arg6)) := by
  after_results <;> rfl
theorem read3_v46 : StableHlo.after hostOps3 W (Proc.devRef .tc main_v46) = Cert.Gine.rowOf (Cert.Gine.bias1 (W (Proc.devRef .tc main_arg7))) := by
  after_results <;> rfl

/-! ## Stretch 4: the gather of the source rows -/

theorem read4_v54 : StableHlo.after hostOps4 W (Proc.devRef .tc main_v54)
    = Cert.Gine.gatherRows (W (Proc.devRef .tc main_v47)) (W (Proc.devRef .tc main_v1)) := by
  after_results <;> rfl

/-! ## Stretch 5: layer 2's aggregate, weights and bias rows -/

theorem read5_v58 : StableHlo.after hostOps5 W (Proc.devRef .tc main_v58)
    = Cert.Gine.sumInto (W (Proc.devRef .tc main_v3)) (W (Proc.devRef .tc main_v55)) := by
  after_results <;> rfl
theorem read5_v60 : StableHlo.after hostOps5 W (Proc.devRef .tc main_v60) = Cert.Gine.weight2 (W (Proc.devRef .tc main_arg4)) := by
  after_results <;> rfl
theorem read5_v63 : StableHlo.after hostOps5 W (Proc.devRef .tc main_v63) = Cert.Gine.rowOf (Cert.Gine.bias2 (W (Proc.devRef .tc main_arg5))) := by
  after_results <;> rfl
theorem read5_v65 : StableHlo.after hostOps5 W (Proc.devRef .tc main_v65) = Cert.Gine.weight2 (W (Proc.devRef .tc main_arg6)) := by
  after_results <;> rfl
theorem read5_v68 : StableHlo.after hostOps5 W (Proc.devRef .tc main_v68) = Cert.Gine.rowOf (Cert.Gine.bias2 (W (Proc.devRef .tc main_arg7))) := by
  after_results <;> rfl

/-! ## Stretch 6: the readout -/

theorem read6_v77 : StableHlo.after hostOps6 W (Proc.devRef .tc main_v77)
    = Cert.Gine.readout (W (Proc.devRef .tc main_arg3)) (W (Proc.devRef .tc main_arg8)) (W (Proc.devRef .tc main_arg9)) (W (Proc.devRef .tc main_v69)) := by
  after_results <;> rfl

end Cert.KernelIdeal.Fold

end
-- ==== Proof.FoldChain.lean ====
/-
  The kernel's result as the network of its arguments.

  The fold through @main is read from the returned buffer backwards.  The readout reads the last region's output
  and three arguments; a node-update region's output is `nodeUpdate` of what the region found in its six arrays;
  those are the previous features, the scatter-add of the previous message region's output, and the layer's
  weights and bias rows; a message region's output is `edgeMessage` of the gathered source rows and the edge
  attributes; and the index words, computed once by the first host stretch, are carried unchanged to every later
  use, as are the arguments.  Three layers of this give the network.

  What each region leaves in its output array (`RegionValues`) is taken here as a hypothesis: it is proved
  region by region elsewhere, from the kernel bodies.
-/
import proofs.«168259_j50096498540960_1_alg».proof.Proof.FoldKeep
import proofs.«168259_j50096498540960_1_alg».proof.Proof.FoldHost

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.Gine (edgeMessage nodeUpdate gatherRows sumInto srcWords dstWords weight0 weight1 weight2 bias0 bias1 bias2 rowOf readout layer)

/-- What each region leaves in its output array, for any contents `V` at its entry: the message regions the edge
    message of their two input arrays, the node-update regions the node update of their six. -/
structure RegionValues : Prop where
  msg0 : ∀ (V : (c : Dev nD) → (b : Ref sig .tc) → Buf (Elt Ideal) ((c : Thread nD τ).loc b)) (c : Dev nD),
    (dat0 (F := Ideal) V c).arrAt 2 cfg0.N = edgeMessage (V c main_v10) (V c main_arg2)
  upd1 : ∀ (V : (c : Dev nD) → (b : Ref sig .tc) → Buf (Elt Ideal) ((c : Thread nD τ).loc b)) (c : Dev nD),
    (dat1 (F := Ideal) V c).arrAt 6 cfg1.N
      = nodeUpdate (V c main_arg0) (V c main_v14) (V c main_v16) (V c main_v19) (V c main_v21) (V c main_v24)
  msg2 : ∀ (V : (c : Dev nD) → (b : Ref sig .tc) → Buf (Elt Ideal) ((c : Thread nD τ).loc b)) (c : Dev nD),
    (dat2 (F := Ideal) V c).arrAt 2 cfg2.N = edgeMessage (V c main_v32) (V c main_arg2)
  upd3 : ∀ (V : (c : Dev nD) → (b : Ref sig .tc) → Buf (Elt Ideal) ((c : Thread nD τ).loc b)) (c : Dev nD),
    (dat3 (F := Ideal) V c).arrAt 6 cfg3.N
      = nodeUpdate (V c main_v25) (V c main_v36) (V c main_v38) (V c main_v41) (V c main_v43) (V c main_v46)
  msg4 : ∀ (V : (c : Dev nD) → (b : Ref sig .tc) → Buf (Elt Ideal) ((c : Thread nD τ).loc b)) (c : Dev nD),
    (dat4 (F := Ideal) V c).arrAt 2 cfg4.N = edgeMessage (V c main_v54) (V c main_arg2)
  upd5 : ∀ (V : (c : Dev nD) → (b : Ref sig .tc) → Buf (Elt Ideal) ((c : Thread nD τ).loc b)) (c : Dev nD),
    (dat5 (F := Ideal) V c).arrAt 6 cfg5.N
      = nodeUpdate (V c main_v47) (V c main_v58) (V c main_v60) (V c main_v63) (V c main_v65) (V c main_v68)

theorem nodeUpdate_congr {x x' a a' : FVec Ideal Cert.ReferenceIdeal.S100000x64 .f32}
    {w1 w1' w2 w2' : FVec Ideal Cert.ReferenceIdeal.S64x64 .f32} {b1 b1' b2 b2' : FVec Ideal Cert.ReferenceIdeal.S1x64 .f32}
    (hx : x = x') (ha : a = a') (hw1 : w1 = w1') (hb1 : b1 = b1') (hw2 : w2 = w2') (hb2 : b2 = b2') :
    nodeUpdate x a w1 b1 w2 b2 = nodeUpdate x' a' w1' b1' w2' b2' := by
  subst hx ha hw1 hb1 hw2 hb2; rfl

variable (m : (ℓ : Loc nD τ sig) → Buf (Elt Ideal) ℓ) (ρ : Dev nD → PrngReg) (c : Dev nD)

/-! ## Two boundaries at a time: what a host stretch and the region after it both leave alone -/

theorem keep02 (b : Ref sig .tc) (h : b ∉ wr0) (h' : b ≠ main_v11) : W2 m ρ c (Proc.devRef .tc b) = W0 m ρ c (Proc.devRef .tc b) :=
  (keepR0 m ρ c b h').trans (keepH0 _ b h)
theorem keep24 (b : Ref sig .tc) (h : b ∉ wr1) (h' : b ≠ main_v25) : W4 m ρ c (Proc.devRef .tc b) = W2 m ρ c (Proc.devRef .tc b) :=
  (keepR1 m ρ c b h').trans (keepH1 _ b h)
theorem keep46 (b : Ref sig .tc) (h : b ∉ wr2) (h' : b ≠ main_v33) : W6 m ρ c (Proc.devRef .tc b) = W4 m ρ c (Proc.devRef .tc b) :=
  (keepR2 m ρ c b h').trans (keepH2 _ b h)
theorem keep68 (b : Ref sig .tc) (h : b ∉ wr3) (h' : b ≠ main_v47) : W8 m ρ c (Proc.devRef .tc b) = W6 m ρ c (Proc.devRef .tc b) :=
  (keepR3 m ρ c b h').trans (keepH3 _ b h)
theorem keep810 (b : Ref sig .tc) (h : b ∉ wr4) (h' : b ≠ main_v55) : W10 m ρ c (Proc.devRef .tc b) = W8 m ρ c (Proc.devRef .tc b) :=
  (keepR4 m ρ c b h').trans (keepH4 _ b h)
theorem keep1012 (b : Ref sig .tc) (h : b ∉ wr5) (h' : b ≠ main_v69) : W12 m ρ c (Proc.devRef .tc b) = W10 m ρ c (Proc.devRef .tc b) :=
  (keepR5 m ρ c b h').trans (keepH5 _ b h)

/-! ## The index words, made by the first stretch and carried to every later boundary -/

theorem src2 : W2 m ρ c (Proc.devRef .tc main_v1) = srcWords (m ((c : Thread nD τ).loc main_arg1)) :=
  (keepR0 m ρ c _ (by decide)).trans (read0_v1 (W0 m ρ c))
theorem dst2 : W2 m ρ c (Proc.devRef .tc main_v3) = dstWords (m ((c : Thread nD τ).loc main_arg1)) :=
  (keepR0 m ρ c _ (by decide)).trans (read0_v3 (W0 m ρ c))
theorem src4 : W4 m ρ c (Proc.devRef .tc main_v1) = srcWords (m ((c : Thread nD τ).loc main_arg1)) :=
  (keep24 m ρ c _ (by decide) (by decide)).trans (src2 m ρ c)
theorem src8 : W8 m ρ c (Proc.devRef .tc main_v1) = srcWords (m ((c : Thread nD τ).loc main_arg1)) :=
  (keep68 m ρ c _ (by decide) (by decide)).trans ((keep46 m ρ c _ (by decide) (by decide)).trans (src4 m ρ c))
theorem dst6 : W6 m ρ c (Proc.devRef .tc main_v3) = dstWords (m ((c : Thread nD τ).loc main_arg1)) :=
  (keep46 m ρ c _ (by decide) (by decide)).trans ((keep24 m ρ c _ (by decide) (by decide)).trans (dst2 m ρ c))
theorem dst10 : W10 m ρ c (Proc.devRef .tc main_v3) = dstWords (m ((c : Thread nD τ).loc main_arg1)) :=
  (keep810 m ρ c _ (by decide) (by decide)).trans ((keep68 m ρ c _ (by decide) (by decide)).trans (dst6 m ρ c))

/-! ## The arguments at the boundaries where they are read -/
theorem arg4_2 : W2 m ρ c (Proc.devRef .tc main_arg4) = (m ((c : Thread nD τ).loc main_arg4)) :=
  (keep02 m ρ c _ (by decide) (by decide))
theorem arg5_2 : W2 m ρ c (Proc.devRef .tc main_arg5) = (m ((c : Thread nD τ).loc main_arg5)) :=
  (keep02 m ρ c _ (by decide) (by decide))
theorem arg6_2 : W2 m ρ c (Proc.devRef .tc main_arg6) = (m ((c : Thread nD τ).loc main_arg6)) :=
  (keep02 m ρ c _ (by decide) (by decide))
theorem arg7_2 : W2 m ρ c (Proc.devRef .tc main_arg7) = (m ((c : Thread nD τ).loc main_arg7)) :=
  (keep02 m ρ c _ (by decide) (by decide))
theorem arg4_6 : W6 m ρ c (Proc.devRef .tc main_arg4) = (m ((c : Thread nD τ).loc main_arg4)) :=
  (keep46 m ρ c _ (by decide) (by decide)).trans ((keep24 m ρ c _ (by decide) (by decide)).trans ((keep02 m ρ c _ (by decide) (by decide))))
theorem arg5_6 : W6 m ρ c (Proc.devRef .tc main_arg5) = (m ((c : Thread nD τ).loc main_arg5)) :=
  (keep46 m ρ c _ (by decide) (by decide)).trans ((keep24 m ρ c _ (by decide) (by decide)).trans ((keep02 m ρ c _ (by decide) (by decide))))
theorem arg6_6 : W6 m ρ c (Proc.devRef .tc main_arg6) = (m ((c : Thread nD τ).loc main_arg6)) :=
  (keep46 m ρ c _ (by decide) (by decide)).trans ((keep24 m ρ c _ (by decide) (by decide)).trans ((keep02 m ρ c _ (by decide) (by decide))))
theorem arg7_6 : W6 m ρ c (Proc.devRef .tc main_arg7) = (m ((c : Thread nD τ).loc main_arg7)) :=
  (keep46 m ρ c _ (by decide) (by decide)).trans ((keep24 m ρ c _ (by decide) (by decide)).trans ((keep02 m ρ c _ (by decide) (by decide))))
theorem arg4_10 : W10 m ρ c (Proc.devRef .tc main_arg4) = (m ((c : Thread nD τ).loc main_arg4)) :=
  (keep810 m ρ c _ (by decide) (by decide)).trans ((keep68 m ρ c _ (by decide) (by decide)).trans ((keep46 m ρ c _ (by decide) (by decide)).trans ((keep24 m ρ c _ (by decide) (by decide)).trans ((keep02 m ρ c _ (by decide) (by decide))))))
theorem arg5_10 : W10 m ρ c (Proc.devRef .tc main_arg5) = (m ((c : Thread nD τ).loc main_arg5)) :=
  (keep810 m ρ c _ (by decide) (by decide)).trans ((keep68 m ρ c _ (by decide) (by decide)).trans ((keep46 m ρ c _ (by decide) (by decide)).trans ((keep24 m ρ c _ (by decide) (by decide)).trans ((keep02 m ρ c _ (by decide) (by decide))))))
theorem arg6_10 : W10 m ρ c (Proc.devRef .tc main_arg6) = (m ((c : Thread nD τ).loc main_arg6)) :=
  (keep810 m ρ c _ (by decide) (by decide)).trans ((keep68 m ρ c _ (by decide) (by decide)).trans ((keep46 m ρ c _ (by decide) (by decide)).trans ((keep24 m ρ c _ (by decide) (by decide)).trans ((keep02 m ρ c _ (by decide) (by decide))))))
theorem arg7_10 : W10 m ρ c (Proc.devRef .tc main_arg7) = (m ((c : Thread nD τ).loc main_arg7)) :=
  (keep810 m ρ c _ (by decide) (by decide)).trans ((keep68 m ρ c _ (by decide) (by decide)).trans ((keep46 m ρ c _ (by decide) (by decide)).trans ((keep24 m ρ c _ (by decide) (by decide)).trans ((keep02 m ρ c _ (by decide) (by decide))))))
theorem arg3_12 : W12 m ρ c (Proc.devRef .tc main_arg3) = (m ((c : Thread nD τ).loc main_arg3)) :=
  (keep1012 m ρ c _ (by decide) (by decide)).trans ((keep810 m ρ c _ (by decide) (by decide)).trans ((keep68 m ρ c _ (by decide) (by decide)).trans ((keep46 m ρ c _ (by decide) (by decide)).trans ((keep24 m ρ c _ (by decide) (by decide)).trans ((keep02 m ρ c _ (by decide) (by decide)))))))
theorem arg8_12 : W12 m ρ c (Proc.devRef .tc main_arg8) = (m ((c : Thread nD τ).loc main_arg8)) :=
  (keep1012 m ρ c _ (by decide) (by decide)).trans ((keep810 m ρ c _ (by decide) (by decide)).trans ((keep68 m ρ c _ (by decide) (by decide)).trans ((keep46 m ρ c _ (by decide) (by decide)).trans ((keep24 m ρ c _ (by decide) (by decide)).trans ((keep02 m ρ c _ (by decide) (by decide)))))))
theorem arg9_12 : W12 m ρ c (Proc.devRef .tc main_arg9) = (m ((c : Thread nD τ).loc main_arg9)) :=
  (keep1012 m ρ c _ (by decide) (by decide)).trans ((keep810 m ρ c _ (by decide) (by decide)).trans ((keep68 m ρ c _ (by decide) (by decide)).trans ((keep46 m ρ c _ (by decide) (by decide)).trans ((keep24 m ρ c _ (by decide) (by decide)).trans ((keep02 m ρ c _ (by decide) (by decide)))))))
theorem arg2_1 : W1 m ρ c (Proc.devRef .tc main_arg2) = (m ((c : Thread nD τ).loc main_arg2)) := keepH0 _ _ (by decide)
theorem arg2_5 : W5 m ρ c (Proc.devRef .tc main_arg2) = (m ((c : Thread nD τ).loc main_arg2)) :=
  (keepH2 _ _ (by decide)).trans ((keep24 m ρ c _ (by decide) (by decide)).trans ((keep02 m ρ c _ (by decide) (by decide))))
theorem arg2_9 : W9 m ρ c (Proc.devRef .tc main_arg2) = (m ((c : Thread nD τ).loc main_arg2)) :=
  (keepH4 _ _ (by decide)).trans ((keep68 m ρ c _ (by decide) (by decide)).trans ((keep46 m ρ c _ (by decide) (by decide)).trans ((keep24 m ρ c _ (by decide) (by decide)).trans ((keep02 m ρ c _ (by decide) (by decide))))))
theorem arg0_3 : W3 m ρ c (Proc.devRef .tc main_arg0) = (m ((c : Thread nD τ).loc main_arg0)) :=
  (keepH1 _ _ (by decide)).trans ((keep02 m ρ c _ (by decide) (by decide)))

/-! ## Layer 0 -/

/-- The node features after layer 0. -/
def feat1 : FVec Ideal Cert.ReferenceIdeal.S100000x64 .f32 :=
  layer (m ((c : Thread nD τ).loc main_arg1)) (m ((c : Thread nD τ).loc main_arg2)) (weight0 (m ((c : Thread nD τ).loc main_arg4))) (rowOf (bias0 (m ((c : Thread nD τ).loc main_arg5)))) (weight0 (m ((c : Thread nD τ).loc main_arg6))) (rowOf (bias0 (m ((c : Thread nD τ).loc main_arg7)))) (m ((c : Thread nD τ).loc main_arg0))
/-- The node features after layer 1. -/
def feat2 : FVec Ideal Cert.ReferenceIdeal.S100000x64 .f32 :=
  layer (m ((c : Thread nD τ).loc main_arg1)) (m ((c : Thread nD τ).loc main_arg2)) (weight1 (m ((c : Thread nD τ).loc main_arg4))) (rowOf (bias1 (m ((c : Thread nD τ).loc main_arg5)))) (weight1 (m ((c : Thread nD τ).loc main_arg6))) (rowOf (bias1 (m ((c : Thread nD τ).loc main_arg7)))) (feat1 m c)
/-- The node features after layer 2. -/
def feat3 : FVec Ideal Cert.ReferenceIdeal.S100000x64 .f32 :=
  layer (m ((c : Thread nD τ).loc main_arg1)) (m ((c : Thread nD τ).loc main_arg2)) (weight2 (m ((c : Thread nD τ).loc main_arg4))) (rowOf (bias2 (m ((c : Thread nD τ).loc main_arg5)))) (weight2 (m ((c : Thread nD τ).loc main_arg6))) (rowOf (bias2 (m ((c : Thread nD τ).loc main_arg7)))) (feat2 m c)

theorem rows1 : W1 m ρ c (Proc.devRef .tc main_v10) = gatherRows (m ((c : Thread nD τ).loc main_arg0)) (srcWords (m ((c : Thread nD τ).loc main_arg1))) := read0_v10 (W0 m ρ c)

variable (H : RegionValues)
include H

theorem msg2_v11 : W2 m ρ c (Proc.devRef .tc main_v11) = edgeMessage (gatherRows (m ((c : Thread nD τ).loc main_arg0)) (srcWords (m ((c : Thread nD τ).loc main_arg1)))) (m ((c : Thread nD τ).loc main_arg2)) :=
  (W2_arr m ρ c 2).trans ((H.msg0 (V1 m ρ) c).trans (congrArg₂ edgeMessage (rows1 m ρ c) (arg2_1 m ρ c)))

theorem feat1_4 : W4 m ρ c (Proc.devRef .tc main_v25) = feat1 m c :=
  (W4_arr m ρ c 6).trans ((H.upd1 (V3 m ρ) c).trans (nodeUpdate_congr (arg0_3 m ρ c)
    ((read1_v14 (W2 m ρ c)).trans (congrArg₂ sumInto (dst2 m ρ c) (msg2_v11 m ρ c H)))
    ((read1_v16 (W2 m ρ c)).trans (congrArg weight0 (arg4_2 m ρ c)))
    ((read1_v19 (W2 m ρ c)).trans (congrArg (fun v => rowOf (bias0 v)) (arg5_2 m ρ c)))
    ((read1_v21 (W2 m ρ c)).trans (congrArg weight0 (arg6_2 m ρ c)))
    ((read1_v24 (W2 m ρ c)).trans (congrArg (fun v => rowOf (bias0 v)) (arg7_2 m ρ c)))))

/-! ## Layer 1 -/

theorem rows5 : W5 m ρ c (Proc.devRef .tc main_v32) = gatherRows (feat1 m c) (srcWords (m ((c : Thread nD τ).loc main_arg1))) :=
  (read2_v32 (W4 m ρ c)).trans (congrArg₂ gatherRows (feat1_4 m ρ c H) (src4 m ρ c))

theorem msg6_v33 : W6 m ρ c (Proc.devRef .tc main_v33) = edgeMessage (gatherRows (feat1 m c) (srcWords (m ((c : Thread nD τ).loc main_arg1)))) (m ((c : Thread nD τ).loc main_arg2)) :=
  (W6_arr m ρ c 2).trans ((H.msg2 (V5 m ρ) c).trans (congrArg₂ edgeMessage (rows5 m ρ c H) (arg2_5 m ρ c)))

theorem feat1_7 : W7 m ρ c (Proc.devRef .tc main_v25) = feat1 m c :=
  (keepH3 _ _ (by decide)).trans ((keep46 m ρ c _ (by decide) (by decide)).trans (feat1_4 m ρ c H))

theorem feat2_8 : W8 m ρ c (Proc.devRef .tc main_v47) = feat2 m c :=
  (W8_arr m ρ c 6).trans ((H.upd3 (V7 m ρ) c).trans (nodeUpdate_congr (feat1_7 m ρ c H)
    ((read3_v36 (W6 m ρ c)).trans (congrArg₂ sumInto (dst6 m ρ c) (msg6_v33 m ρ c H)))
    ((read3_v38 (W6 m ρ c)).trans (congrArg weight1 (arg4_6 m ρ c)))
    ((read3_v41 (W6 m ρ c)).trans (congrArg (fun v => rowOf (bias1 v)) (arg5_6 m ρ c)))
    ((read3_v43 (W6 m ρ c)).trans (congrArg weight1 (arg6_6 m ρ c)))
    ((read3_v46 (W6 m ρ c)).trans (congrArg (fun v => rowOf (bias1 v)) (arg7_6 m ρ c)))))

/-! ## Layer 2 -/

theorem rows9 : W9 m ρ c (Proc.devRef .tc main_v54) = gatherRows (feat2 m c) (srcWords (m ((c : Thread nD τ).loc main_arg1))) :=
  (read4_v54 (W8 m ρ c)).trans (congrArg₂ gatherRows (feat2_8 m ρ c H) (src8 m ρ c))

theorem msg10_v55 : W10 m ρ c (Proc.devRef .tc main_v55) = edgeMessage (gatherRows (feat2 m c) (srcWords (m ((c : Thread nD τ).loc main_arg1)))) (m ((c : Thread nD τ).loc main_arg2)) :=
  (W10_arr m ρ c 2).trans ((H.msg4 (V9 m ρ) c).trans (congrArg₂ edgeMessage (rows9 m ρ c H) (arg2_9 m ρ c)))

theorem feat2_11 : W11 m ρ c (Proc.devRef .tc main_v47) = feat2 m c :=
  (keepH5 _ _ (by decide)).trans ((keep810 m ρ c _ (by decide) (by decide)).trans (feat2_8 m ρ c H))

theorem feat3_12 : W12 m ρ c (Proc.devRef .tc main_v69) = feat3 m c :=
  (W12_arr m ρ c 6).trans ((H.upd5 (V11 m ρ) c).trans (nodeUpdate_congr (feat2_11 m ρ c H)
    ((read5_v58 (W10 m ρ c)).trans (congrArg₂ sumInto (dst10 m ρ c) (msg10_v55 m ρ c H)))
    ((read5_v60 (W10 m ρ c)).trans (congrArg weight2 (arg4_10 m ρ c)))
    ((read5_v63 (W10 m ρ c)).trans (congrArg (fun v => rowOf (bias2 v)) (arg5_10 m ρ c)))
    ((read5_v65 (W10 m ρ c)).trans (congrArg weight2 (arg6_10 m ρ c)))
    ((read5_v68 (W10 m ρ c)).trans (congrArg (fun v => rowOf (bias2 v)) (arg7_10 m ρ c)))))

/-! ## The readout -/

/-- The returned buffer holds the readout of the features after three layers. -/
theorem result13 : W13 m ρ c (Proc.devRef .tc main_v77) = readout (m ((c : Thread nD τ).loc main_arg3)) (m ((c : Thread nD τ).loc main_arg8)) (m ((c : Thread nD τ).loc main_arg9)) (feat3 m c) :=
  (read6_v77 (W12 m ρ c)).trans (by rw [arg3_12 m ρ c, arg8_12 m ρ c, arg9_12 m ρ c, feat3_12 m ρ c H])

end Cert.KernelIdeal.Fold

end
-- ==== Proof.BiasRow.lean ====
/-
  A vector as a row, two ways.

  The kernel's program hands a bias to its region as a 1 × 64 row made by a change of shape; the reference lays the
  same 64 entries out as a row by a broadcast along a new leading axis.  Entry (0, k) of either row is entry k of
  the vector, so the two rows are one array — and with them the three layers, and the whole network, agree.
-/
import proofs.«168259_j50096498540960_1_alg».proof.Proof.NetworkSteps
import Idealize.ShloMosaic.Lib.Pipeline.Value

noncomputable section

namespace Cert.Gine

open Idealize.ShloMosaic Cert.ReferenceIdeal Cert.ReferenceIdeal.Facts₀

/-- The row made by a change of shape is the row made by the broadcast. -/
theorem rowOf_eq_asRow (v : FVec Ideal S64 .f32) : rowOf v = asRow v := by
  funext j
  refine (shapeCast_addUnit_apply ![64] v _ j).trans
    (broadcastInDim_apply _ bcast_S64_S1x64_1 v j (fun a => j a.succ) (fun a => ?_)).symm
  match a with
  | ⟨0, _⟩ => exact (if_neg (show ¬ (64 : Nat) = 1 by decide)).symm

end Cert.Gine

end
-- ==== Proof.Message0.lean ====
/-
  Message region 0: the array the region writes is the edge message of the two arrays it reads.

  The region walks 125 blocks of 9600 rows (all 64 columns each).  At block t it loads rows 9600 t … 9600 t + 9599 of the
  gathered source rows and of the edge features, and stores, entry by entry, max (x_src + e) 0 into the same rows of
  its result.  Both sides are pointwise, so block t of the result is block t of the whole-array edge message; the 125
  blocks tile the 1200000 rows, hence the array after the region is the edge message.
-/
import proofs.«168259_j50096498540960_1_alg».proof.Proof.Gen.KernelIdeal.Frame
import proofs.«168259_j50096498540960_1_alg».proof.Proof.Layers
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.MessageValue

open Cert.KernelIdeal Cert.KernelIdeal.Gen

variable (V : (c : Dev nD) → (b : Ref sig .tc) → Buf (Elt Ideal) ((c : Thread nD τ).loc b))

/-- The store's offsets are zero on both axes. -/
theorem offsets_zero0 : (![0, 0] : Fin 2 → Nat) = fun _ => 0 := funext fun a => by fin_cases a <;> rfl

/-- The body's payload, entry by entry: max (x + e) 0 (the reshape in front of the sum is to the same shape). -/
theorem payload0_eq (x0 x1 : Vec Ideal S9600x64 .f32) :
    k0_pay1 x0 x1 = fun j => max (x0 j + x1 j) (Ideal.ofBits .f32 0x00000000#32) := by
  unfold k0_pay1
  rw [shapeCast_self]
  rfl

/-- The printed index maps over the grid: at point t all three windows sit at block (t, 0). -/
theorem block_index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the edge message of the two arrays read. -/
theorem flushed0_eq (c : Dev nD) (t : Fin cfg0.N) :
    (dat0 V c).flushed 2 t
      = ((cfg0.win 2).blk t).view.read (Elt Ideal) (Cert.Gine.edgeMessage (V c main_v10) (V c main_arg2)) := by
  show (cfg0.win 2).cut (grid0.coords t) ((dat0 V c).after 2 t) = _
  rw [after0_2]
  unfold out0_2
  rw [View.canon_unit_zero offsets_zero0]
  simp only [View.ld_unit_zero (S := S9600x64) offsets_zero0]
  rw [payload0_eq]
  obtain ⟨e0, e1, e2, e3, e4, e5⟩ := block_index0 t
  funext j
  have h0 : ((cfg0.win 0).blk t).view.emb j = ((cfg0.win 2).blk t).view.emb j := by
    funext a; apply Fin.ext
    match a with
    | ⟨0, _⟩ => show win0_0.index t (0 : Fin 2) * 9600 + 1 * (j 0).val = win0_2.index t (0 : Fin 2) * 9600 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 9600 + 1 * (j 0).val = win0_2.index t (0 : Fin 2) * 9600 + 1 * (j 0).val; omega
    | ⟨1, _⟩ => show win0_1.index t (1 : Fin 2) * 64 + 1 * (j 1).val = win0_2.index t (1 : Fin 2) * 64 + 1 * (j 1).val; omega
  -- both sides are max (x + e) 0, the left read at the input blocks' indices, the right at the output block's
  have same : ∀ (xs e : S1200000x64.Idx → Ideal .f32) (i0 i1 i2 : S1200000x64.Idx), i0 = i2 → i1 = i2 →
      max (xs i0 + e i1) (Ideal.ofBits .f32 0x00000000#32) = max (xs i2 + e i2) (Ideal.ofBits .f32 0x00000000#32) := by
    intro xs e i0 i1 i2 a b; rw [a, b]
  exact same (V c main_v10) (V c main_arg2) _ _ _ h0 h1

/-- An index of the array lies in point t's block iff each coordinate lies in the block's range on its axis. -/
theorem mem_block0 (t : Fin cfg0.N) (i : S1200000x64.Idx) :
    i ∈ ((cfg0.win 2).blk t).view.set ↔ ∀ a : Fin 2, win0_2.index t a * S9600x64.size a ≤ (i a).val ∧ (i a).val < win0_2.index t a * S9600x64.size a + S9600x64.size a := by
  show i ∈ ((View.whole main_v11).slice (win0_2.rect t)).set ↔ _
  rw [View.set_slice_whole, Rect.mem_set_unit]
  exact Iff.rfl

/-- Every index of the result array lies in some point's block: row r lies in block r / 9600, and 125 × 9600 = 1200000. -/
theorem cover0 (i : S1200000x64.Idx) :
    ∃ t : Fin cfg0.N, (cfg0.win 2).flush t = true ∧ i ∈ ((cfg0.win 2).blk t).view.set := by
  have hi0 : (i 0).val < 1200000 := (i 0).isLt
  have hi1 : (i 1).val < 64 := (i 1).isLt
  have hN : grid0.N = 125 := N_0
  obtain ⟨t, ht⟩ : ∃ t : Fin cfg0.N, t.val = (i 0).val / 9600 :=
    ⟨⟨(i 0).val / 9600, by show (i 0).val / 9600 < grid0.N; rw [hN]; omega⟩, rfl⟩
  obtain ⟨e0, e1, e2, e3, e4, e5⟩ := block_index0 t
  refine ⟨t, flush0_2 t, ?_⟩
  rw [mem_block0]
  intro a
  match a with
  | ⟨0, _⟩ => show win0_2.index t (0 : Fin 2) * 9600 ≤ (i 0).val ∧ (i 0).val < win0_2.index t (0 : Fin 2) * 9600 + 9600; omega
  | ⟨1, _⟩ => show win0_2.index t (1 : Fin 2) * 64 ≤ (i 1).val ∧ (i 1).val < win0_2.index t (1 : Fin 2) * 64 + 64; omega

/-- The array the region leaves is the edge message of the two arrays it read. -/
theorem region0_final (c : Dev nD) :
    (Gen.dat0 (F := Ideal) V c).arrAt 2 cfg0.N = Cert.Gine.edgeMessage (V c main_v10) (V c main_arg2) :=
  (dat0 V c).arrAt_eq_of_cover 2 _ (fun t _ => flushed0_eq V c t) cover0

end Cert.KernelIdeal.MessageValue

end
-- ==== Proof.Message2.lean ====
/-
  Message region 2: the array the region writes is the edge message of the two arrays it reads.

  The region walks 125 blocks of 9600 rows (all 64 columns each).  At block t it loads rows 9600 t … 9600 t + 9599 of the
  gathered source rows and of the edge features, and stores, entry by entry, max (x_src + e) 0 into the same rows of
  its result.  Both sides are pointwise, so block t of the result is block t of the whole-array edge message; the 125
  blocks tile the 1200000 rows, hence the array after the region is the edge message.
-/
import proofs.«168259_j50096498540960_1_alg».proof.Proof.Gen.KernelIdeal.Frame
import proofs.«168259_j50096498540960_1_alg».proof.Proof.Layers
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.MessageValue

open Cert.KernelIdeal Cert.KernelIdeal.Gen

variable (V : (c : Dev nD) → (b : Ref sig .tc) → Buf (Elt Ideal) ((c : Thread nD τ).loc b))

/-- The store's offsets are zero on both axes. -/
theorem offsets_zero2 : (![0, 0] : Fin 2 → Nat) = fun _ => 0 := funext fun a => by fin_cases a <;> rfl

/-- The body's payload, entry by entry: max (x + e) 0 (the reshape in front of the sum is to the same shape). -/
theorem payload2_eq (x0 x1 : Vec Ideal S9600x64 .f32) :
    k2_pay1 x0 x1 = fun j => max (x0 j + x1 j) (Ideal.ofBits .f32 0x00000000#32) := by
  unfold k2_pay1
  rw [shapeCast_self]
  rfl

/-- The printed index maps over the grid: at point t all three windows sit at block (t, 0). -/
theorem block_index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the edge message of the two arrays read. -/
theorem flushed2_eq (c : Dev nD) (t : Fin cfg2.N) :
    (dat2 V c).flushed 2 t
      = ((cfg2.win 2).blk t).view.read (Elt Ideal) (Cert.Gine.edgeMessage (V c main_v32) (V c main_arg2)) := by
  show (cfg2.win 2).cut (grid2.coords t) ((dat2 V c).after 2 t) = _
  rw [after2_2]
  unfold out2_2
  rw [View.canon_unit_zero offsets_zero2]
  simp only [View.ld_unit_zero (S := S9600x64) offsets_zero2]
  rw [payload2_eq]
  obtain ⟨e0, e1, e2, e3, e4, e5⟩ := block_index2 t
  funext j
  have h0 : ((cfg2.win 0).blk t).view.emb j = ((cfg2.win 2).blk t).view.emb j := by
    funext a; apply Fin.ext
    match a with
    | ⟨0, _⟩ => show win2_0.index t (0 : Fin 2) * 9600 + 1 * (j 0).val = win2_2.index t (0 : Fin 2) * 9600 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 9600 + 1 * (j 0).val = win2_2.index t (0 : Fin 2) * 9600 + 1 * (j 0).val; omega
    | ⟨1, _⟩ => show win2_1.index t (1 : Fin 2) * 64 + 1 * (j 1).val = win2_2.index t (1 : Fin 2) * 64 + 1 * (j 1).val; omega
  -- both sides are max (x + e) 0, the left read at the input blocks' indices, the right at the output block's
  have same : ∀ (xs e : S1200000x64.Idx → Ideal .f32) (i0 i1 i2 : S1200000x64.Idx), i0 = i2 → i1 = i2 →
      max (xs i0 + e i1) (Ideal.ofBits .f32 0x00000000#32) = max (xs i2 + e i2) (Ideal.ofBits .f32 0x00000000#32) := by
    intro xs e i0 i1 i2 a b; rw [a, b]
  exact same (V c main_v32) (V c main_arg2) _ _ _ h0 h1

/-- An index of the array lies in point t's block iff each coordinate lies in the block's range on its axis. -/
theorem mem_block2 (t : Fin cfg2.N) (i : S1200000x64.Idx) :
    i ∈ ((cfg2.win 2).blk t).view.set ↔ ∀ a : Fin 2, win2_2.index t a * S9600x64.size a ≤ (i a).val ∧ (i a).val < win2_2.index t a * S9600x64.size a + S9600x64.size a := by
  show i ∈ ((View.whole main_v33).slice (win2_2.rect t)).set ↔ _
  rw [View.set_slice_whole, Rect.mem_set_unit]
  exact Iff.rfl

/-- Every index of the result array lies in some point's block: row r lies in block r / 9600, and 125 × 9600 = 1200000. -/
theorem cover2 (i : S1200000x64.Idx) :
    ∃ t : Fin cfg2.N, (cfg2.win 2).flush t = true ∧ i ∈ ((cfg2.win 2).blk t).view.set := by
  have hi0 : (i 0).val < 1200000 := (i 0).isLt
  have hi1 : (i 1).val < 64 := (i 1).isLt
  have hN : grid2.N = 125 := N_2
  obtain ⟨t, ht⟩ : ∃ t : Fin cfg2.N, t.val = (i 0).val / 9600 :=
    ⟨⟨(i 0).val / 9600, by show (i 0).val / 9600 < grid2.N; rw [hN]; omega⟩, rfl⟩
  obtain ⟨e0, e1, e2, e3, e4, e5⟩ := block_index2 t
  refine ⟨t, flush2_2 t, ?_⟩
  rw [mem_block2]
  intro a
  match a with
  | ⟨0, _⟩ => show win2_2.index t (0 : Fin 2) * 9600 ≤ (i 0).val ∧ (i 0).val < win2_2.index t (0 : Fin 2) * 9600 + 9600; omega
  | ⟨1, _⟩ => show win2_2.index t (1 : Fin 2) * 64 ≤ (i 1).val ∧ (i 1).val < win2_2.index t (1 : Fin 2) * 64 + 64; omega

/-- The array the region leaves is the edge message of the two arrays it read. -/
theorem region2_final (c : Dev nD) :
    (Gen.dat2 (F := Ideal) V c).arrAt 2 cfg2.N = Cert.Gine.edgeMessage (V c main_v32) (V c main_arg2) :=
  (dat2 V c).arrAt_eq_of_cover 2 _ (fun t _ => flushed2_eq V c t) cover2

end Cert.KernelIdeal.MessageValue

end
-- ==== Proof.Message4.lean ====
/-
  Message region 4: the array the region writes is the edge message of the two arrays it reads.

  The region walks 125 blocks of 9600 rows (all 64 columns each).  At block t it loads rows 9600 t … 9600 t + 9599 of the
  gathered source rows and of the edge features, and stores, entry by entry, max (x_src + e) 0 into the same rows of
  its result.  Both sides are pointwise, so block t of the result is block t of the whole-array edge message; the 125
  blocks tile the 1200000 rows, hence the array after the region is the edge message.
-/
import proofs.«168259_j50096498540960_1_alg».proof.Proof.Gen.KernelIdeal.Frame
import proofs.«168259_j50096498540960_1_alg».proof.Proof.Layers
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.MessageValue

open Cert.KernelIdeal Cert.KernelIdeal.Gen

variable (V : (c : Dev nD) → (b : Ref sig .tc) → Buf (Elt Ideal) ((c : Thread nD τ).loc b))

/-- The store's offsets are zero on both axes. -/
theorem offsets_zero4 : (![0, 0] : Fin 2 → Nat) = fun _ => 0 := funext fun a => by fin_cases a <;> rfl

/-- The body's payload, entry by entry: max (x + e) 0 (the reshape in front of the sum is to the same shape). -/
theorem payload4_eq (x0 x1 : Vec Ideal S9600x64 .f32) :
    k4_pay1 x0 x1 = fun j => max (x0 j + x1 j) (Ideal.ofBits .f32 0x00000000#32) := by
  unfold k4_pay1
  rw [shapeCast_self]
  rfl

/-- The printed index maps over the grid: at point t all three windows sit at block (t, 0). -/
theorem block_index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the edge message of the two arrays read. -/
theorem flushed4_eq (c : Dev nD) (t : Fin cfg4.N) :
    (dat4 V c).flushed 2 t
      = ((cfg4.win 2).blk t).view.read (Elt Ideal) (Cert.Gine.edgeMessage (V c main_v54) (V c main_arg2)) := by
  show (cfg4.win 2).cut (grid4.coords t) ((dat4 V c).after 2 t) = _
  rw [after4_2]
  unfold out4_2
  rw [View.canon_unit_zero offsets_zero4]
  simp only [View.ld_unit_zero (S := S9600x64) offsets_zero4]
  rw [payload4_eq]
  obtain ⟨e0, e1, e2, e3, e4, e5⟩ := block_index4 t
  funext j
  have h0 : ((cfg4.win 0).blk t).view.emb j = ((cfg4.win 2).blk t).view.emb j := by
    funext a; apply Fin.ext
    match a with
    | ⟨0, _⟩ => show win4_0.index t (0 : Fin 2) * 9600 + 1 * (j 0).val = win4_2.index t (0 : Fin 2) * 9600 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 9600 + 1 * (j 0).val = win4_2.index t (0 : Fin 2) * 9600 + 1 * (j 0).val; omega
    | ⟨1, _⟩ => show win4_1.index t (1 : Fin 2) * 64 + 1 * (j 1).val = win4_2.index t (1 : Fin 2) * 64 + 1 * (j 1).val; omega
  -- both sides are max (x + e) 0, the left read at the input blocks' indices, the right at the output block's
  have same : ∀ (xs e : S1200000x64.Idx → Ideal .f32) (i0 i1 i2 : S1200000x64.Idx), i0 = i2 → i1 = i2 →
      max (xs i0 + e i1) (Ideal.ofBits .f32 0x00000000#32) = max (xs i2 + e i2) (Ideal.ofBits .f32 0x00000000#32) := by
    intro xs e i0 i1 i2 a b; rw [a, b]
  exact same (V c main_v54) (V c main_arg2) _ _ _ h0 h1

/-- An index of the array lies in point t's block iff each coordinate lies in the block's range on its axis. -/
theorem mem_block4 (t : Fin cfg4.N) (i : S1200000x64.Idx) :
    i ∈ ((cfg4.win 2).blk t).view.set ↔ ∀ a : Fin 2, win4_2.index t a * S9600x64.size a ≤ (i a).val ∧ (i a).val < win4_2.index t a * S9600x64.size a + S9600x64.size a := by
  show i ∈ ((View.whole main_v55).slice (win4_2.rect t)).set ↔ _
  rw [View.set_slice_whole, Rect.mem_set_unit]
  exact Iff.rfl

/-- Every index of the result array lies in some point's block: row r lies in block r / 9600, and 125 × 9600 = 1200000. -/
theorem cover4 (i : S1200000x64.Idx) :
    ∃ t : Fin cfg4.N, (cfg4.win 2).flush t = true ∧ i ∈ ((cfg4.win 2).blk t).view.set := by
  have hi0 : (i 0).val < 1200000 := (i 0).isLt
  have hi1 : (i 1).val < 64 := (i 1).isLt
  have hN : grid4.N = 125 := N_4
  obtain ⟨t, ht⟩ : ∃ t : Fin cfg4.N, t.val = (i 0).val / 9600 :=
    ⟨⟨(i 0).val / 9600, by show (i 0).val / 9600 < grid4.N; rw [hN]; omega⟩, rfl⟩
  obtain ⟨e0, e1, e2, e3, e4, e5⟩ := block_index4 t
  refine ⟨t, flush4_2 t, ?_⟩
  rw [mem_block4]
  intro a
  match a with
  | ⟨0, _⟩ => show win4_2.index t (0 : Fin 2) * 9600 ≤ (i 0).val ∧ (i 0).val < win4_2.index t (0 : Fin 2) * 9600 + 9600; omega
  | ⟨1, _⟩ => show win4_2.index t (1 : Fin 2) * 64 ≤ (i 1).val ∧ (i 1).val < win4_2.index t (1 : Fin 2) * 64 + 64; omega

/-- The array the region leaves is the edge message of the two arrays it read. -/
theorem region4_final (c : Dev nD) :
    (Gen.dat4 (F := Ideal) V c).arrAt 2 cfg4.N = Cert.Gine.edgeMessage (V c main_v54) (V c main_arg2) :=
  (dat4 V c).arrAt_eq_of_cover 2 _ (fun t _ => flushed4_eq V c t) cover4

end Cert.KernelIdeal.MessageValue

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.UpdatePoint.lean ====
/-
  One entry of the node update.

  Row r of the updated node features depends on row r of the node features x and of the aggregate a only:
  with h = x + a (64 entries), the entry in column j is
      max (∑ k, max (∑ k', h k' · W1 (k', k) + b1 k) 0 · W2 (k, j) + b2 j) 0 .
  Here that number is written once, over plain functions of the channel index, with the zero of the two
  maxima kept as the float word it is printed as.
-/
import Idealize.ShloMosaic.PureOps.Ideal

noncomputable section

open scoped BigOperators

namespace Cert.KernelIdeal.UpdateValue

open Idealize.ShloMosaic

/-- Column j of the updated row, from the row's 64 features x, its 64 aggregated messages a, the two 64 × 64
    weights and the two bias rows. -/
def updateAt (x a : Fin 64 → Ideal .f32) (w1 : Fin 64 → Fin 64 → Ideal .f32) (b1 : Fin 64 → Ideal .f32)
    (w2 : Fin 64 → Fin 64 → Ideal .f32) (b2 : Fin 64 → Ideal .f32) (j : Fin 64) : Ideal .f32 :=
  max (∑ k : Fin 64, max (∑ k' : Fin 64, (x k' + a k') * w1 k' k + b1 k) (Ideal.ofBits .f32 0x00000000#32) * w2 k j + b2 j)
    (Ideal.ofBits .f32 0x00000000#32)

end Cert.KernelIdeal.UpdateValue

end
-- ==== Proof.UpdatePayload.lean ====
/-
  What one block of the node update stores, entry by entry.

  The body of a node-update region loads a 5000 × 64 block of the node features, the same block of the aggregated
  messages, the two 64 × 64 weights and the two 1 × 64 bias rows, and stores
      relu (relu ((x + a) · W1 + b1) · W2 + b2)
  computed with two matrix products into zero accumulators.  At the ideal values the narrowing of the products'
  operands changes nothing, the trivial reshapes are identities, and a bias row broadcast down the block reads its
  one row; so entry (p, q) of the stored block is `updateAt` of row p of the two blocks.
-/
import proofs.«168259_j50096498540960_1_alg».proof.Proof.Gen.KernelIdeal.Skeleton
import proofs.«168259_j50096498540960_1_alg».proof.Proof.LibPlainMatmul
import proofs.«168259_j50096498540960_1_alg».proof.Proof.UpdatePoint
import Idealize.ShloMosaic.Lib.ValueIdx
import Idealize.ShloMosaic.Lib.ValueLayout
import Idealize.ShloMosaic.Lib.Pipeline.Value

noncomputable section

open scoped BigOperators

namespace Cert.KernelIdeal.UpdateValue

open Idealize.ShloMosaic Idealize.ShloMosaic.ValueIdx Cert.KernelIdeal Cert.KernelIdeal.Gen

/-- The zero offsets of a whole-buffer access, as the constant function. -/
theorem zero_offsets : (![0, 0] : Fin 2 → Nat) = fun _ => 0 := funext fun a => by fin_cases a <;> rfl

/-- One dense stage of the block: relu (h · W + b), the product's operands narrowed and the bias row repeated down
    the block, read at (p, q). -/
theorem dense_apply (h : FVec Ideal S5000x64 .f32) (w : FVec Ideal S64x64 .f32) (b : FVec Ideal S1x64 .f32)
    (p : Fin 5000) (q : Fin 64) :
    maximumf (addf (matmul dot_S5000x64_S64x64_S5000x64_1_0_0_1_n_n none (truncf .bf16 h bitsLt_bf16_f32)
          (truncf .bf16 w bitsLt_bf16_f32) (constant S5000x64 .f32 0x00000000#32))
        (broadcastTo S5000x64 b broadcasts_S1x64_S5000x64))
      (broadcast S5000x64 (Scalar.ofBits (F := Ideal) .f32 0x00000000#32)) (ix2 p q)
    = max (∑ k : Fin 64, h (ix2 p k) * w (ix2 k q) + b (ix2 (0 : Fin 1) q)) (Ideal.ofBits .f32 0x00000000#32) := by
  show max (matmul dot_S5000x64_S64x64_S5000x64_1_0_0_1_n_n none (truncf .bf16 h bitsLt_bf16_f32)
      (truncf .bf16 w bitsLt_bf16_f32) (constant S5000x64 .f32 0x00000000#32) (ix2 p q)
    + broadcastTo S5000x64 b broadcasts_S1x64_S5000x64 (ix2 p q)) _ = _
  rw [PlainMatmul.matmul_zero_apply _ rfl rfl rfl rfl rfl rfl, broadcastTo_1b_ab_apply]
  rfl

/-- Two dense stages, the second on the first's result, read at (p, q): `updateAt` of the rows. -/
theorem dense_dense_apply (h : FVec Ideal S5000x64 .f32) (w1 : FVec Ideal S64x64 .f32) (b1 : FVec Ideal S1x64 .f32)
    (w2 : FVec Ideal S64x64 .f32) (b2 : FVec Ideal S1x64 .f32) (p : Fin 5000) (q : Fin 64) :
    maximumf (addf (matmul dot_S5000x64_S64x64_S5000x64_1_0_0_1_n_n none
          (truncf .bf16
            (maximumf (addf (matmul dot_S5000x64_S64x64_S5000x64_1_0_0_1_n_n none (truncf .bf16 h bitsLt_bf16_f32)
                  (truncf .bf16 w1 bitsLt_bf16_f32) (constant S5000x64 .f32 0x00000000#32))
                (broadcastTo S5000x64 b1 broadcasts_S1x64_S5000x64))
              (broadcast S5000x64 (Scalar.ofBits (F := Ideal) .f32 0x00000000#32))) bitsLt_bf16_f32)
          (truncf .bf16 w2 bitsLt_bf16_f32) (constant S5000x64 .f32 0x00000000#32))
        (broadcastTo S5000x64 b2 broadcasts_S1x64_S5000x64))
      (broadcast S5000x64 (Scalar.ofBits (F := Ideal) .f32 0x00000000#32)) (ix2 p q)
    = max (∑ k : Fin 64, max (∑ k' : Fin 64, h (ix2 p k') * w1 (ix2 k' k) + b1 (ix2 (0 : Fin 1) k))
          (Ideal.ofBits .f32 0x00000000#32) * w2 (ix2 k q) + b2 (ix2 (0 : Fin 1) q)) (Ideal.ofBits .f32 0x00000000#32) := by
  refine (dense_apply _ w2 b2 p q).trans ?_
  refine congrArg (fun s : Ideal .f32 => max (s + b2 (ix2 (0 : Fin 1) q)) (Ideal.ofBits .f32 0x00000000#32)) ?_
  exact Finset.sum_congr rfl fun k _ => congrArg (fun s : Ideal .f32 => s * w2 (ix2 k q)) (dense_apply h w1 b1 p k)

/-- Entry (p, q) of the block the first node-update region's body stores. -/
theorem k1_pay1_apply (x a : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k1_pay1 (F := Ideal) x a w1 b1 w2 b2 (ix2 p q)
      = updateAt (fun k => x (ix2 p k)) (fun k => a (ix2 p k)) (fun k' k => w1 (ix2 k' k)) (fun k => b1 (ix2 (0 : Fin 1) k))
          (fun k j => w2 (ix2 k j)) (fun j => b2 (ix2 (0 : Fin 1) j)) q := by
  unfold k1_pay1
  simp only [shapeCast_self]
  exact dense_dense_apply (addf x a) w1 b1 w2 b2 p q

/-- Entry (p, q) of the block the second node-update region's body stores. -/
theorem k3_pay1_apply (x a : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k3_pay1 (F := Ideal) x a w1 b1 w2 b2 (ix2 p q)
      = updateAt (fun k => x (ix2 p k)) (fun k => a (ix2 p k)) (fun k' k => w1 (ix2 k' k)) (fun k => b1 (ix2 (0 : Fin 1) k))
          (fun k j => w2 (ix2 k j)) (fun j => b2 (ix2 (0 : Fin 1) j)) q := by
  unfold k3_pay1
  simp only [shapeCast_self]
  exact dense_dense_apply (addf x a) w1 b1 w2 b2 p q

/-- Entry (p, q) of the block the third node-update region's body stores. -/
theorem k5_pay1_apply (x a : Vec Ideal S5000x64 .f32) (w1 : Vec Ideal S64x64 .f32) (b1 : Vec Ideal S1x64 .f32)
    (w2 : Vec Ideal S64x64 .f32) (b2 : Vec Ideal S1x64 .f32) (p : Fin 5000) (q : Fin 64) :
    k5_pay1 (F := Ideal) x a w1 b1 w2 b2 (ix2 p q)
      = updateAt (fun k => x (ix2 p k)) (fun k => a (ix2 p k)) (fun k' k => w1 (ix2 k' k)) (fun k => b1 (ix2 (0 : Fin 1) k))
          (fun k j => w2 (ix2 k j)) (fun j => b2 (ix2 (0 : Fin 1) j)) q := by
  unfold k5_pay1
  simp only [shapeCast_self]
  exact dense_dense_apply (addf x a) w1 b1 w2 b2 p q

end Cert.KernelIdeal.UpdateValue

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.UpdateReference.lean ====
/-
  The whole-array node update, entry by entry.

  `Cert.Gine.nodeUpdate x a W1 b1 W2 b2` is relu (relu ((x + a) · W1 + b1) · W2 + b2) over the 100000 × 64 arrays,
  with the host's matrix product and each bias row repeated down the 100000 rows.  Entry (r, j) of a product is
  the dot product of the left operand's row r with the right operand's column j, a repeated bias row reads its
  one row, and the zero of a relu is the scalar zero repeated; so entry (r, j) is `updateAt` of row r of x and a.
-/
import proofs.«168259_j50096498540960_1_alg».proof.Proof.Layers
import proofs.«168259_j50096498540960_1_alg».proof.Proof.LibHostDot
import proofs.«168259_j50096498540960_1_alg».proof.Proof.UpdatePoint
import Idealize.ShloMosaic.Lib.ValueIdx
import Idealize.ShloMosaic.Lib.IdealHost
import Idealize.ShloMosaic.Lib.KernelVsHost
import Idealize.ShloMosaic.Lib.Pipeline.Value

noncomputable section

open scoped BigOperators

namespace Cert.KernelIdeal.UpdateValue

open Idealize.ShloMosaic Idealize.ShloMosaic.ValueIdx Cert.ReferenceIdeal Cert.ReferenceIdeal.Facts₀

/-- One dense stage over the whole array: relu (h · W + b) read at (r, j). -/
theorem hostDense_apply (h : FVec Ideal S100000x64 .f32) (w : FVec Ideal S64x64 .f32) (b : FVec Ideal S1x64 .f32)
    (r : Fin 100000) (j : Fin 64) :
    maximumf (addf (Host.dotGeneral dot_S100000x64_S64x64_S100000x64_1_0_0_1_n_n none h w)
        (broadcastInDim S100000x64 ![0, 1] bcast_S1x64_S100000x64_0_1 b))
      (broadcastInDim S100000x64 ![] bcast_S_S100000x64 (constant (F := Ideal) S_ .f32 0x00000000#32)) (ix2 r j)
    = max (∑ k : Fin 64, h (ix2 r k) * w (ix2 k j) + b (ix2 (0 : Fin 1) j)) (Ideal.ofBits .f32 0x00000000#32) := by
  show max (Host.dotGeneral dot_S100000x64_S64x64_S100000x64_1_0_0_1_n_n none h w (ix2 r j)
      + broadcastInDim S100000x64 ![0, 1] bcast_S1x64_S100000x64_0_1 b (ix2 r j))
    (broadcastInDim S100000x64 ![] bcast_S_S100000x64 (constant (F := Ideal) S_ .f32 0x00000000#32) (ix2 r j)) = _
  rw [HostDot.dotGeneral_apply _ rfl rfl rfl rfl rfl rfl, broadcastInDim_oneRow_apply, broadcastInDim_scalar_apply]
  rfl

/-- Entry (r, j) of the whole-array node update is `updateAt` of row r of the node features and of the aggregate. -/
theorem nodeUpdate_apply (x a : FVec Ideal S100000x64 .f32) (w1 : FVec Ideal S64x64 .f32) (b1 : FVec Ideal S1x64 .f32)
    (w2 : FVec Ideal S64x64 .f32) (b2 : FVec Ideal S1x64 .f32) (r : Fin 100000) (j : Fin 64) :
    Cert.Gine.nodeUpdate x a w1 b1 w2 b2 (ix2 r j)
      = updateAt (fun k => x (ix2 r k)) (fun k => a (ix2 r k)) (fun k' k => w1 (ix2 k' k)) (fun k => b1 (ix2 (0 : Fin 1) k))
          (fun k j => w2 (ix2 k j)) (fun j => b2 (ix2 (0 : Fin 1) j)) j := by
  unfold Cert.Gine.nodeUpdate
  refine (hostDense_apply _ w2 b2 r j).trans ?_
  refine congrArg (fun s : Ideal .f32 => max (s + b2 (ix2 (0 : Fin 1) j)) (Ideal.ofBits .f32 0x00000000#32)) ?_
  exact Finset.sum_congr rfl fun k _ => congrArg (fun s : Ideal .f32 => s * w2 (ix2 k j)) (hostDense_apply (addf x a) w1 b1 r k)

end Cert.KernelIdeal.UpdateValue

end
-- ==== Proof.UpdateRegion1.lean ====
/-
  The first node-update region: the array it leaves is the whole-array node update of the arrays it finds.

  The region walks the 100000 rows in 20 blocks of 5000 rows.  At block t the body sees rows 5000 t … 5000 t + 4999
  of the node features and of the aggregate, and the whole of the two weights and the two bias rows; it stores
  the block whose entry (p, q) is `updateAt` of row p of the two blocks — which is entry (5000 t + p, q) of the
  whole-array node update.  The 20 blocks tile the array, so the array ends holding the node update everywhere.
-/
import proofs.«168259_j50096498540960_1_alg».proof.Proof.Gen.KernelIdeal.Frame
import proofs.«168259_j50096498540960_1_alg».proof.Proof.UpdatePayload
import proofs.«168259_j50096498540960_1_alg».proof.Proof.UpdateReference
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.UpdateValue

open Cert.KernelIdeal Cert.KernelIdeal.Gen

variable (V : (c : Dev nD) → (b : Ref sig .tc) → Buf (Elt Ideal) ((c : Thread nD τ).loc b))

/-- The printed index maps over the 20 points: the feature, aggregate and output windows sit at block (t, 0),
    the weight and bias windows at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the feature block at point t is row 5000 t + p of the feature array. -/
theorem x_block1 (c : Dev nD) (t : Fin cfg1.N) (p : Fin 5000) (k : Fin 64) (r : Fin 100000)
    (hr : r.val = t.val * 5000 + p.val) :
    (iblk1 V c 0 t : Vec Ideal S5000x64 .f32) (ix2 p k) = (V c main_arg0 : Vec Ideal S100000x64 .f32) (ix2 r k) := by
  obtain ⟨e0, e1, -⟩ := index1 t
  unfold iblk1
  show (V c main_arg0 : Vec Ideal S100000x64 .f32) (((cfg1.win 0).blk t).view.emb (ix2 p k)) = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- Row p of the aggregate block at point t is row 5000 t + p of the aggregate array. -/
theorem a_block1 (c : Dev nD) (t : Fin cfg1.N) (p : Fin 5000) (k : Fin 64) (r : Fin 100000)
    (hr : r.val = t.val * 5000 + p.val) :
    (iblk1 V c 1 t : Vec Ideal S5000x64 .f32) (ix2 p k) = (V c main_v14 : Vec Ideal S100000x64 .f32) (ix2 r k) := by
  obtain ⟨-, -, e0, e1, -⟩ := index1 t
  unfold iblk1
  show (V c main_v14 : Vec Ideal S100000x64 .f32) (((cfg1.win 1).blk t).view.emb (ix2 p k)) = _
  refine congrArg _ (funext fun a => Fin.ext ?_)
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- The first weight's block at every point is the whole weight. -/
theorem w1_block1 (c : Dev nD) (t : Fin cfg1.N) (y : S64x64.Idx) :
    (iblk1 V c 2 t : Vec Ideal S64x64 .f32) y = (V c main_v16 : Vec Ideal S64x64 .f32) y := by
  obtain ⟨-, -, -, -, e0, e1, -⟩ := index1 t
  unfold iblk1
  show (V c main_v16 : Vec Ideal S64x64 .f32) (((cfg1.win 2).blk t).view.emb y) = _
  refine congrArg _ (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The first bias row's block at every point is the whole row. -/
theorem b1_block1 (c : Dev nD) (t : Fin cfg1.N) (y : S1x64.Idx) :
    (iblk1 V c 3 t : Vec Ideal S1x64 .f32) y = (V c main_v19 : Vec Ideal S1x64 .f32) y := by
  obtain ⟨-, -, -, -, -, -, e0, e1, -⟩ := index1 t
  unfold iblk1
  show (V c main_v19 : Vec Ideal S1x64 .f32) (((cfg1.win 3).blk t).view.emb y) = _
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The second weight's block at every point is the whole weight. -/
theorem w2_block1 (c : Dev nD) (t : Fin cfg1.N) (y : S64x64.Idx) :
    (iblk1 V c 4 t : Vec Ideal S64x64 .f32) y = (V c main_v21 : Vec Ideal S64x64 .f32) y := by
  obtain ⟨-, -, -, -, -, -, -, -, e0, e1, -⟩ := index1 t
  unfold iblk1
  show (V c main_v21 : Vec Ideal S64x64 .f32) (((cfg1.win 4).blk t).view.emb y) = _
  refine congrArg _ (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The second bias row's block at every point is the whole row. -/
theorem b2_block1 (c : Dev nD) (t : Fin cfg1.N) (y : S1x64.Idx) :
    (iblk1 V c 5 t : Vec Ideal S1x64 .f32) y = (V c main_v24 : Vec Ideal S1x64 .f32) y := by
  obtain ⟨-, -, -, -, -, -, -, -, -, -, e0, e1, -⟩ := index1 t
  unfold iblk1
  show (V c main_v24 : Vec Ideal S1x64 .f32) (((cfg1.win 5).blk t).view.emb y) = _
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- What point t writes back is block t of the whole-array node update of the arrays the region finds. -/
theorem flushed1_eq (c : Dev nD) (t : Fin cfg1.N) :
    (dat1 (F := Ideal) V c).flushed 6 t = ((cfg1.win 6).blk t).view.read (Elt Ideal)
      (Cert.Gine.nodeUpdate (V c main_arg0) (V c main_v14) (V c main_v16) (V c main_v19) (V c main_v21) (V c main_v24)) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S64x64) zero_offsets,
    View.ld_unit_zero (S := S1x64) zero_offsets]
  funext y
  obtain ⟨p, q, rfl⟩ : ∃ (p : Fin 5000) (q : Fin 64), y = ix2 p q := ⟨y 0, y 1, eq_ix2 y⟩
  have ht : t.val < 20 := lt_of_lt_of_eq t.isLt N_1
  obtain ⟨-, -, -, -, -, -, -, -, -, -, -, -, e0, e1⟩ := index1 t
  have hemb : ((cfg1.win 6).blk t).view.emb (ix2 p q)
      = (ix2 (⟨t.val * 5000 + p.val, by omega⟩ : Fin 100000) q : S100000x64.Idx) := by
    funext a; apply Fin.ext
    match a with
    | ⟨0, _⟩ => show win1_6.index t (0 : Fin 2) * 5000 + 1 * p.val = t.val * 5000 + p.val; rw [e0]; omega
    | ⟨1, _⟩ => show win1_6.index t (1 : Fin 2) * 64 + 1 * q.val = q.val; rw [e1]; omega
  show k1_pay1 (F := Ideal) (iblk1 V c 0 t) (iblk1 V c 1 t) (iblk1 V c 2 t) (iblk1 V c 3 t) (iblk1 V c 4 t) (iblk1 V c 5 t) (ix2 p q)
    = Cert.Gine.nodeUpdate (V c main_arg0) (V c main_v14) (V c main_v16) (V c main_v19) (V c main_v21) (V c main_v24)
        (((cfg1.win 6).blk t).view.emb (ix2 p q))
  rw [hemb]
  refine (k1_pay1_apply _ _ _ _ _ _ p q).trans ((nodeUpdate_apply _ _ _ _ _ _ _ q).trans ?_).symm
  have hx := funext fun k : Fin 64 => (x_block1 V c t p k ⟨t.val * 5000 + p.val, by omega⟩ rfl).symm
  have ha := funext fun k : Fin 64 => (a_block1 V c t p k ⟨t.val * 5000 + p.val, by omega⟩ rfl).symm
  have hw1 := funext fun k' : Fin 64 => funext fun k : Fin 64 => (w1_block1 V c t (ix2 k' k)).symm
  have hb1 := funext fun k : Fin 64 => (b1_block1 V c t (ix2 (0 : Fin 1) k)).symm
  have hw2 := funext fun k : Fin 64 => funext fun j : Fin 64 => (w2_block1 V c t (ix2 k j)).symm
  have hb2 := funext fun j : Fin 64 => (b2_block1 V c t (ix2 (0 : Fin 1) j)).symm
  rw [hx, ha, hw1, hb1, hw2, hb2]

/-- An index of the output array is in point t's block iff, on each axis, it is in the block's range. -/
theorem mem_block1 (t : Fin cfg1.N) (i : S100000x64.Idx) :
    i ∈ ((cfg1.win 6).blk t).view.set
      ↔ ∀ a : Fin 2, win1_6.index t a * S5000x64.size a ≤ (i a).val
          ∧ (i a).val < win1_6.index t a * S5000x64.size a + S5000x64.size a := by
  show i ∈ ((View.whole main_v25).slice (win1_6.rect t)).set ↔ _
  rw [View.set_slice_whole, Rect.mem_set_unit]
  exact Iff.rfl

/-- The 20 blocks of 5000 rows tile the 100000 rows: row r is in the block of point r / 5000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, -, -, e0, e1⟩ := index1 ⟨(i 0).val / 5000, hlt⟩
  refine ⟨⟨(i 0).val / 5000, hlt⟩, flush1_6 _, ?_⟩
  rw [mem_block1]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [e1]; omega

/-- The array the first node-update region leaves is the whole-array node update of the arrays it finds. -/
theorem region1_final (c : Dev nD) :
    (dat1 (F := Ideal) V c).arrAt 6 cfg1.N
      = Cert.Gine.nodeUpdate (V c main_arg0) (V c main_v14) (V c main_v16) (V c main_v19) (V c main_v21) (V c main_v24) :=
  (dat1 (F := Ideal) V c).arrAt_eq_of_cover 6
    (Cert.Gine.nodeUpdate (V c main_arg0) (V c main_v14) (V c main_v16) (V c main_v19) (V c main_v21) (V c main_v24))
    (fun t _ => flushed1_eq V c t) cover1

end Cert.KernelIdeal.UpdateValue

end
-- ==== Proof.UpdateRegion3.lean ====
/-
  The second node-update region: the array it leaves is the whole-array node update of the arrays it finds.

  The region walks the 100000 rows in 20 blocks of 5000 rows.  At block t the body sees rows 5000 t … 5000 t + 4999
  of the node features and of the aggregate, and the whole of the two weights and the two bias rows; it stores
  the block whose entry (p, q) is `updateAt` of row p of the two blocks — which is entry (5000 t + p, q) of the
  whole-array node update.  The 20 blocks tile the array, so the array ends holding the node update everywhere.
-/
import proofs.«168259_j50096498540960_1_alg».proof.Proof.Gen.KernelIdeal.Frame
import proofs.«168259_j50096498540960_1_alg».proof.Proof.UpdatePayload
import proofs.«168259_j50096498540960_1_alg».proof.Proof.UpdateReference
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.UpdateValue

open Cert.KernelIdeal Cert.KernelIdeal.Gen

variable (V : (c : Dev nD) → (b : Ref sig .tc) → Buf (Elt Ideal) ((c : Thread nD τ).loc b))

/-- The printed index maps over the 20 points: the feature, aggregate and output windows sit at block (t, 0),
    the weight and bias windows at block (0, 0). -/
theorem index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of the feature block at point t is row 5000 t + p of the feature array. -/
theorem x_block3 (c : Dev nD) (t : Fin cfg3.N) (p : Fin 5000) (k : Fin 64) (r : Fin 100000)
    (hr : r.val = t.val * 5000 + p.val) :
    (iblk3 V c 0 t : Vec Ideal S5000x64 .f32) (ix2 p k) = (V c main_v25 : Vec Ideal S100000x64 .f32) (ix2 r k) := by
  obtain ⟨e0, e1, -⟩ := index3 t
  unfold iblk3
  show (V c main_v25 : Vec Ideal S100000x64 .f32) (((cfg3.win 0).blk t).view.emb (ix2 p k)) = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- Row p of the aggregate block at point t is row 5000 t + p of the aggregate array. -/
theorem a_block3 (c : Dev nD) (t : Fin cfg3.N) (p : Fin 5000) (k : Fin 64) (r : Fin 100000)
    (hr : r.val = t.val * 5000 + p.val) :
    (iblk3 V c 1 t : Vec Ideal S5000x64 .f32) (ix2 p k) = (V c main_v36 : Vec Ideal S100000x64 .f32) (ix2 r k) := by
  obtain ⟨-, -, e0, e1, -⟩ := index3 t
  unfold iblk3
  show (V c main_v36 : Vec Ideal S100000x64 .f32) (((cfg3.win 1).blk t).view.emb (ix2 p k)) = _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 64 + 1 * k.val = k.val; rw [e1]; omega

/-- The first weight's block at every point is the whole weight. -/
theorem w1_block3 (c : Dev nD) (t : Fin cfg3.N) (y : S64x64.Idx) :
    (iblk3 V c 2 t : Vec Ideal S64x64 .f32) y = (V c main_v38 : Vec Ideal S64x64 .f32) y := by
  obtain ⟨-, -, -, -, e0, e1, -⟩ := index3 t
  unfold iblk3
  show (V c main_v38 : Vec Ideal S64x64 .f32) (((cfg3.win 2).blk t).view.emb y) = _
  refine congrArg _ (funext fun a => Fin.ext ?_)
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- The first bias row's block at every point is the whole row. -/
theorem b1_block3 (c : Dev nD) (t : Fin cfg3.N) (y : S1x64.Idx) :
    (iblk3 V c 3 t : Vec Ideal S1x64 .f32) y = (V c main_v41 : Vec Ideal S1x64 .f32) y := by
  obtain ⟨-, -, -, -, -, -, e0, e1, -⟩ := index3 t
  unfold iblk3
  show (V c main_v41 : Vec Ideal S1x64 .f32) (((cfg3.win 3).blk t).view.emb y) = _
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- The second weight's block at every point is the whole weight. -/
theorem w2_block3 (c : Dev nD) (t : Fin cfg3.N) (y : S64x64.Idx) :
    (iblk3 V c 4 t : Vec Ideal S64x64 .f32) y = (V c main_v43 : Vec Ideal S64x64 .f32) y := by
  obtain ⟨-, -, -, -, -, -, -, -, e0, e1, -⟩ := index3 t
  unfold iblk3
  show (V c main_v43 : Vec Ideal S64x64 .f32) (((cfg3.win 4).blk t).view.emb y) = _
  refine congrArg _ (funext fun a => Fin.ext ?_)
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

/-- The second bias row's block at every point is the whole row. -/
theorem b2_block3 (c : Dev nD) (t : Fin cfg3.N) (y : S1x64.Idx) :
    (iblk3 V c 5 t : Vec Ideal S1x64 .f32) y = (V c main_v46 : Vec Ideal S1x64 .f32) y := by
  obtain ⟨-, -, -, -, -, -, -, -, -, -, e0, e1, -⟩ := index3 t
  unfold iblk3
  show (V c main_v46 : Vec Ideal S1x64 .f32) (((cfg3.win 5).blk t).view.emb y) = _
  refine congrArg _ (funext fun a => Fin.ext ?_)
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- What point t writes back is block t of the whole-array node update of the arrays the region finds. -/
theorem flushed3_eq (c : Dev nD) (t : Fin cfg3.N) :
    (dat3 (F := Ideal) V c).flushed 6 t = ((cfg3.win 6).blk t).view.read (Elt Ideal)
      (Cert.Gine.nodeUpdate (V c main_v25) (V c main_v36) (V c main_v38) (V c main_v41) (V c main_v43) (V c main_v46)) := by
  show (cfg3.win 6).cut (grid3.coords t) ((dat3 V c).after 6 t) = _
  rw [after3_6]
  unfold out3_6
  rw [View.canon_unit_zero zero_offsets]
  simp only [View.ld_unit_zero (S := S5000x64) zero_offsets, View.ld_unit_zero (S := S64x64) zero_offsets,
    View.ld_unit_zero (S := S1x64) zero_offsets]
  funext y
  obtain ⟨p, q, rfl⟩ : ∃ (p : Fin 5000) (q : Fin 64), y = ix2 p q := ⟨y 0, y 1, eq_ix2 y⟩
  have ht : t.val < 20 := lt_of_lt_of_eq t.isLt N_3
  obtain ⟨-, -, -, -, -, -, -, -, -, -, -, -, e0, e1⟩ := index3 t
  have hemb : ((cfg3.win 6).blk t).view.emb (ix2 p q)
      = (ix2 (⟨t.val * 5000 + p.val, by omega⟩ : Fin 100000) q : S100000x64.Idx) := by
    funext a; apply Fin.ext
    match a with
    | ⟨0, _⟩ => show win3_6.index t (0 : Fin 2) * 5000 + 1 * p.val = t.val * 5000 + p.val; rw [e0]; omega
    | ⟨1, _⟩ => show win3_6.index t (1 : Fin 2) * 64 + 1 * q.val = q.val; rw [e1]; omega
  show k3_pay1 (F := Ideal) (iblk3 V c 0 t) (iblk3 V c 1 t) (iblk3 V c 2 t) (iblk3 V c 3 t) (iblk3 V c 4 t) (iblk3 V c 5 t) (ix2 p q)
    = Cert.Gine.nodeUpdate (V c main_v25) (V c main_v36) (V c main_v38) (V c main_v41) (V c main_v43) (V c main_v46)
        (((cfg3.win 6).blk t).view.emb (ix2 p q))
  rw [hemb]
  refine (k3_pay1_apply _ _ _ _ _ _ p q).trans ((nodeUpdate_apply _ _ _ _ _ _ _ q).trans ?_).symm
  have hx := funext fun k : Fin 64 => (x_block3 V c t p k ⟨t.val * 5000 + p.val, by omega⟩ rfl).symm
  have ha := funext fun k : Fin 64 => (a_block3 V c t p k ⟨t.val * 5000 + p.val, by omega⟩ rfl).symm
  have hw1 := funext fun k' : Fin 64 => funext fun k : Fin 64 => (w1_block3 V c t (ix2 k' k)).symm
  have hb1 := funext fun k : Fin 64 => (b1_block3 V c t (ix2 (0 : Fin 1) k)).symm
  have hw2 := funext fun k : Fin 64 => funext fun j : Fin 64 => (w2_block3 V c t (ix2 k j)).symm
  have hb2 := funext fun j : Fin 64 => (b2_block3 V c t (ix2 (0 : Fin 1) j)).symm
  rw [hx, ha, hw1, hb1, hw2, hb2]

/-- An index of the output array is in point t's block iff, on each axis, it is in the block's range. -/
theorem mem_block3 (t : Fin cfg3.N) (i : S100000x64.Idx) :
    i ∈ ((cfg3.win 6).blk t).view.set
      ↔ ∀ a : Fin 2, win3_6.index t a * S5000x64.size a ≤ (i a).val
          ∧ (i a).val < win3_6.index t a * S5000x64.size a + S5000x64.size a := by
  show i ∈ ((View.whole main_v47).slice (win3_6.rect t)).set ↔ _
  rw [View.set_slice_whole, Rect.mem_set_unit]
  exact Iff.rfl

/-- The 20 blocks of 5000 rows tile the 100000 rows: row r is in the block of point r / 5000. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  have hlt : (i 0).val / 5000 < cfg3.N := by rw [hN]; omega
  obtain ⟨-, -, -, -, -, -, -, -, -, -, -, -, e0, e1⟩ := index3 ⟨(i 0).val / 5000, hlt⟩
  refine ⟨⟨(i 0).val / 5000, hlt⟩, flush3_6 _, ?_⟩
  rw [mem_block3]
  intro a
  match a with
  | ⟨0, _⟩ =>
    show win3_6.index ⟨(i 0).val / 5000, hlt⟩ (0 : Fin 2) * 5000 ≤ (i 0).val
      ∧ (i 0).val < win3_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, hlt⟩ (1 : Fin 2) * 64 ≤ (i 1).val
      ∧ (i 1).val < win3_6.index ⟨(i 0).val / 5000, hlt⟩ (1 : Fin 2) * 64 + 64
    rw [e1]; omega

/-- The array the second node-update region leaves is the whole-array node update of the arrays it finds. -/
theorem region3_final (c : Dev nD) :
    (dat3 (F := Ideal) V c).arrAt 6 cfg3.N
      = Cert.Gine.nodeUpdate (V c main_v25) (V c main_v36) (V c main_v38) (V c main_v41) (V c main_v43) (V c main_v46) :=
  (dat3 (F := Ideal) V c).arrAt_eq_of_cover 6
    (Cert.Gine.nodeUpdate (V c main_v25) (V c main_v36) (V c main_v38) (V c main_v41) (V c main_v43) (V c main_v46))
    (fun t _ => flushed3_eq V c t) cover3

end Cert.KernelIdeal.UpdateValue

end
-- ==== Proof.UpdateRegion5.lean ====
/-
  The third node-update region: the array it leaves is the whole-array node update of the arrays it finds.

  The region walks the 100000 rows in 20 blocks of 5000 rows.  At block t the body sees rows 5000 t … 5000 t + 4999
  of the node features and of the aggregate, and the whole of the two weights and the two bias rows; it stores
  the block whose entry (p, q) is `updateAt` of row p of the two blocks — which is entry (5000 t + p, q) of the
  whole-array node update.  The 20 blocks tile the array, so the array ends holding the node update everywhere.
-/
import proofs.«168259_j50096498540960_1_alg».proof.Proof.Gen.KernelIdeal.Frame
import proofs.«168259_j50096498540960_1_alg».proof.Proof.UpdatePayload
import proofs.«168259_j50096498540960_1_alg».proof.Proof.UpdateReference
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.UpdateValue

open Cert.KernelIdeal Cert.KernelIdeal.Gen

variable (V : (c : Dev nD) → (b : Ref sig .tc) → Buf (Elt Ideal) ((c : Thread nD τ).loc b))

/-- The printed index maps over the 20 points: the feature, aggregate and output windows sit at block (t, 0),
    the weight and bias windows at block (0, 0). -/
theorem index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row p of the feature block at point t is row 5000 t + p of the feature array. -/
theorem x_block5 (c : Dev nD) (t : Fin cfg5.N) (p : Fin 5000) (k : Fin 64) (r : Fin 100000)
    (hr : r.val = t.val * 5000 + p.val) :
    (iblk5 V c 0 t : Vec Ideal S5000x64 .f32) (ix2 p k) = (V c main_v47 : Vec Ideal S100000x64 .f32) (ix2 r k) := by
  obtain ⟨e0, e1, -⟩ := index5 t
  unfold iblk5
  show (V c main_v47 : Vec Ideal S100000x64 .f32) (((cfg5.win 0).blk t).view.emb (ix2 p k)) = _
  refine congrArg _ (funext fun a => Fin.ext ?_)
  match a with
  | ⟨0, _⟩ => show win5_0.index t (0 : Fin 2) * 5000 + 1 * p.val = r.val; rw [e0, hr]; omega
  | ⟨1, _⟩ => show win5_0.index t (1 : Fin 2) * 64 + 1 * k.val = k.val; rw [e1]; omega

/-- Row p of the aggregate block at point t is row 5000 t + p of the aggregate array. -/
theorem a_block5 (c : Dev nD) (t : Fin cfg5.N) (p : Fin 5000) (k : Fin 64) (r : Fin 100000)
    (hr : r.val = t.val * 5000 + p.val) :
    (iblk5 V c 1 t : Vec Ideal S5000x64 .f32) (ix2 p k) = (V c main_v58 : Vec Ideal S100000x64 .f32) (ix2 r k) := by
  obtain ⟨-, -, e0, e1, -⟩ := index5 t
  unfold iblk5
  show (V c main_v58 : Vec Ideal S100000x64 .f32) (((cfg5.win 1).blk t).view.emb (ix2 p k)) = _
  refine congrArg _ (funext fun a => Fin.ext ?_)
  match a with
  | ⟨0, _⟩ => show win5_1.index t (0 : Fin 2) * 5000 + 1 * p.val = r.val; rw [e0, hr]; omega
  | ⟨1, _⟩ => show win5_1.index t (1 : Fin 2) * 64 + 1 * k.val = k.val; rw [e1]; omega

/-- The first weight's block at every point is the whole weight. -/
theorem w1_block5 (c : Dev nD) (t : Fin cfg5.N) (y : S64x64.Idx) :
    (iblk5 V c 2 t : Vec Ideal S64x64 .f32) y = (V c main_v60 : Vec Ideal S64x64 .f32) y := by
  obtain ⟨-, -, -, -, e0, e1, -⟩ := index5 t
  unfold iblk5
  show (V c main_v60 : Vec Ideal S64x64 .f32) (((cfg5.win 2).blk t).view.emb y) = _
  refine congrArg _ (funext fun a => Fin.ext ?_)
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

/-- The first bias row's block at every point is the whole row. -/
theorem b1_block5 (c : Dev nD) (t : Fin cfg5.N) (y : S1x64.Idx) :
    (iblk5 V c 3 t : Vec Ideal S1x64 .f32) y = (V c main_v63 : Vec Ideal S1x64 .f32) y := by
  obtain ⟨-, -, -, -, -, -, e0, e1, -⟩ := index5 t
  unfold iblk5
  show (V c main_v63 : Vec Ideal S1x64 .f32) (((cfg5.win 3).blk t).view.emb y) = _
  refine congrArg _ (funext fun a => Fin.ext ?_)
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- The second weight's block at every point is the whole weight. -/
theorem w2_block5 (c : Dev nD) (t : Fin cfg5.N) (y : S64x64.Idx) :
    (iblk5 V c 4 t : Vec Ideal S64x64 .f32) y = (V c main_v65 : Vec Ideal S64x64 .f32) y := by
  obtain ⟨-, -, -, -, -, -, -, -, e0, e1, -⟩ := index5 t
  unfold iblk5
  show (V c main_v65 : Vec Ideal S64x64 .f32) (((cfg5.win 4).blk t).view.emb y) = _
  refine congrArg _ (funext fun a => Fin.ext ?_)
  match a with
  | ⟨0, _⟩ => show win5_4.index t (0 : Fin 2) * 64 + 1 * (y 0).val = (y 0).val; rw [e0]; omega
  | ⟨1, _⟩ => show win5_4.index t (1 : Fin 2) * 64 + 1 * (y 1).val = (y 1).val; rw [e1]; omega

/-- The second bias row's block at every point is the whole row. -/
theorem b2_block5 (c : Dev nD) (t : Fin cfg5.N) (y : S1x64.Idx) :
    (iblk5 V c 5 t : Vec Ideal S1x64 .f32) y = (V c main_v68 : Vec Ideal S1x64 .f32) y := by
  obtain ⟨-, -, -, -, -, -, -, -, -, -, e0, e1, -⟩ := index5 t
  unfold iblk5
  show (V c main_v68 : Vec Ideal S1x64 .f32) (((cfg5.win 5).blk t).view.emb y) = _
  refine congrArg _ (funext fun a => Fin.ext ?_)
  match a with
  | ⟨0, _⟩ => show win5_5.index t (0 : Fin 2) * 1 + 1 * (y 0).val = (y 0).val; rw [e0]; omega
  | ⟨1, _⟩ => show win5_5.index t (1 : Fin 2) * 64 + 1 * (y 1).val = (y 1).val; rw [e1]; omega

/-- What point t writes back is block t of the whole-array node update of the arrays the region finds. -/
theorem flushed5_eq (c : Dev nD) (t : Fin cfg5.N) :
    (dat5 (F := Ideal) V c).flushed 6 t = ((cfg5.win 6).blk t).view.read (Elt Ideal)
      (Cert.Gine.nodeUpdate (V c main_v47) (V c main_v58) (V c main_v60) (V c main_v63) (V c main_v65) (V c main_v68)) := by
  show (cfg5.win 6).cut (grid5.coords t) ((dat5 V c).after 6 t) = _
  rw [after5_6]
  unfold out5_6
  rw [View.canon_unit_zero zero_offsets]
  simp only [View.ld_unit_zero (S := S5000x64) zero_offsets, View.ld_unit_zero (S := S64x64) zero_offsets,
    View.ld_unit_zero (S := S1x64) zero_offsets]
  funext y
  obtain ⟨p, q, rfl⟩ : ∃ (p : Fin 5000) (q : Fin 64), y = ix2 p q := ⟨y 0, y 1, eq_ix2 y⟩
  have ht : t.val < 20 := lt_of_lt_of_eq t.isLt N_5
  obtain ⟨-, -, -, -, -, -, -, -, -, -, -, -, e0, e1⟩ := index5 t
  have hemb : ((cfg5.win 6).blk t).view.emb (ix2 p q)
      = (ix2 (⟨t.val * 5000 + p.val, by omega⟩ : Fin 100000) q : S100000x64.Idx) := by
    funext a; apply Fin.ext
    match a with
    | ⟨0, _⟩ => show win5_6.index t (0 : Fin 2) * 5000 + 1 * p.val = t.val * 5000 + p.val; rw [e0]; omega
    | ⟨1, _⟩ => show win5_6.index t (1 : Fin 2) * 64 + 1 * q.val = q.val; rw [e1]; omega
  show k5_pay1 (F := Ideal) (iblk5 V c 0 t) (iblk5 V c 1 t) (iblk5 V c 2 t) (iblk5 V c 3 t) (iblk5 V c 4 t) (iblk5 V c 5 t) (ix2 p q)
    = Cert.Gine.nodeUpdate (V c main_v47) (V c main_v58) (V c main_v60) (V c main_v63) (V c main_v65) (V c main_v68)
        (((cfg5.win 6).blk t).view.emb (ix2 p q))
  rw [hemb]
  refine (k5_pay1_apply _ _ _ _ _ _ p q).trans ((nodeUpdate_apply _ _ _ _ _ _ _ q).trans ?_).symm
  have hx := funext fun k : Fin 64 => (x_block5 V c t p k ⟨t.val * 5000 + p.val, by omega⟩ rfl).symm
  have ha := funext fun k : Fin 64 => (a_block5 V c t p k ⟨t.val * 5000 + p.val, by omega⟩ rfl).symm
  have hw1 := funext fun k' : Fin 64 => funext fun k : Fin 64 => (w1_block5 V c t (ix2 k' k)).symm
  have hb1 := funext fun k : Fin 64 => (b1_block5 V c t (ix2 (0 : Fin 1) k)).symm
  have hw2 := funext fun k : Fin 64 => funext fun j : Fin 64 => (w2_block5 V c t (ix2 k j)).symm
  have hb2 := funext fun j : Fin 64 => (b2_block5 V c t (ix2 (0 : Fin 1) j)).symm
  rw [hx, ha, hw1, hb1, hw2, hb2]

/-- An index of the output array is in point t's block iff, on each axis, it is in the block's range. -/
theorem mem_block5 (t : Fin cfg5.N) (i : S100000x64.Idx) :
    i ∈ ((cfg5.win 6).blk t).view.set
      ↔ ∀ a : Fin 2, win5_6.index t a * S5000x64.size a ≤ (i a).val
          ∧ (i a).val < win5_6.index t a * S5000x64.size a + S5000x64.size a := by
  show i ∈ ((View.whole main_v69).slice (win5_6.rect t)).set ↔ _
  rw [View.set_slice_whole, Rect.mem_set_unit]
  exact Iff.rfl

/-- The 20 blocks of 5000 rows tile the 100000 rows: row r is in the block of point r / 5000. -/
theorem cover5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  have hlt : (i 0).val / 5000 < cfg5.N := by rw [hN]; omega
  obtain ⟨-, -, -, -, -, -, -, -, -, -, -, -, e0, e1⟩ := index5 ⟨(i 0).val / 5000, hlt⟩
  refine ⟨⟨(i 0).val / 5000, hlt⟩, flush5_6 _, ?_⟩
  rw [mem_block5]
  intro a
  match a with
  | ⟨0, _⟩ =>
    show win5_6.index ⟨(i 0).val / 5000, hlt⟩ (0 : Fin 2) * 5000 ≤ (i 0).val
      ∧ (i 0).val < win5_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win5_6.index ⟨(i 0).val / 5000, hlt⟩ (1 : Fin 2) * 64 ≤ (i 1).val
      ∧ (i 1).val < win5_6.index ⟨(i 0).val / 5000, hlt⟩ (1 : Fin 2) * 64 + 64
    rw [e1]; omega

/-- The array the third node-update region leaves is the whole-array node update of the arrays it finds. -/
theorem region5_final (c : Dev nD) :
    (dat5 (F := Ideal) V c).arrAt 6 cfg5.N
      = Cert.Gine.nodeUpdate (V c main_v47) (V c main_v58) (V c main_v60) (V c main_v63) (V c main_v65) (V c main_v68) :=
  (dat5 (F := Ideal) V c).arrAt_eq_of_cover 6
    (Cert.Gine.nodeUpdate (V c main_v47) (V c main_v58) (V c main_v60) (V c main_v63) (V c main_v65) (V c main_v68))
    (fun t _ => flushed5_eq V c t) cover5

end Cert.KernelIdeal.UpdateValue

end
-- ==== Proof.KernelValue.lean ====
/-
  The idealized kernel computes the network.

  The run names the returned buffer's final contents as the fold through @main; the fold, read backwards through
  the six regions and the host stretches between them, is the readout of three layers; each region's output is the
  stage it computes (the edge message, the node update), proved from its body; and the bias rows the kernel makes
  by a change of shape are the rows the network is written with.  So every weakly fair execution of the idealized
  kernel ends with the network of its arguments in the returned buffer, the arguments unchanged.
-/
import proofs.«168259_j50096498540960_1_alg».proof.Proof.KernelRun
import proofs.«168259_j50096498540960_1_alg».proof.Proof.FoldChain
import proofs.«168259_j50096498540960_1_alg».proof.Proof.BiasRow
import proofs.«168259_j50096498540960_1_alg».proof.Proof.Message0
import proofs.«168259_j50096498540960_1_alg».proof.Proof.Message2
import proofs.«168259_j50096498540960_1_alg».proof.Proof.Message4
import proofs.«168259_j50096498540960_1_alg».proof.Proof.UpdateRegion1
import proofs.«168259_j50096498540960_1_alg».proof.Proof.UpdateRegion3
import proofs.«168259_j50096498540960_1_alg».proof.Proof.UpdateRegion5

set_option maxRecDepth 16384

noncomputable section

namespace Cert.KernelIdeal.NetValue

open Idealize.ShloMosaic Idealize.ShloMosaic.TcCoe Idealize.SL.Sem
open Cert.KernelIdeal Cert.KernelIdeal.Gen

/-- What each of the six regions leaves in its output array. -/
theorem regionValues : Fold.RegionValues :=
  ⟨MessageValue.region0_final, UpdateValue.region1_final, MessageValue.region2_final,
   UpdateValue.region3_final, MessageValue.region4_final, UpdateValue.region5_final⟩

variable (m : (ℓ : Loc nD τ sig) → Buf (Elt Ideal) ℓ) (ρ : Dev nD → PrngReg)

/-- The fold's value at the returned buffer is the network of the arguments. -/
theorem result_eq (c : Dev nD) : W13 m ρ c (Proc.devRef .tc main_v77) =
    Cert.Gine.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (Cert.Gine.weight0 (m ((c.tc : Thread Cert.KernelIdeal.nD Cert.KernelIdeal.τ).loc Cert.KernelIdeal.main_arg4))) (Cert.Gine.asRow (Cert.Gine.bias0 (m ((c.tc : Thread Cert.KernelIdeal.nD Cert.KernelIdeal.τ).loc Cert.KernelIdeal.main_arg5)))) (Cert.Gine.weight0 (m ((c.tc : Thread Cert.KernelIdeal.nD Cert.KernelIdeal.τ).loc Cert.KernelIdeal.main_arg6))) (Cert.Gine.asRow (Cert.Gine.bias0 (m ((c.tc : Thread Cert.KernelIdeal.nD Cert.KernelIdeal.τ).loc Cert.KernelIdeal.main_arg7))))
      (Cert.Gine.weight1 (m ((c.tc : Thread Cert.KernelIdeal.nD Cert.KernelIdeal.τ).loc Cert.KernelIdeal.main_arg4))) (Cert.Gine.asRow (Cert.Gine.bias1 (m ((c.tc : Thread Cert.KernelIdeal.nD Cert.KernelIdeal.τ).loc Cert.KernelIdeal.main_arg5)))) (Cert.Gine.weight1 (m ((c.tc : Thread Cert.KernelIdeal.nD Cert.KernelIdeal.τ).loc Cert.KernelIdeal.main_arg6))) (Cert.Gine.asRow (Cert.Gine.bias1 (m ((c.tc : Thread Cert.KernelIdeal.nD Cert.KernelIdeal.τ).loc Cert.KernelIdeal.main_arg7))))
      (Cert.Gine.weight2 (m ((c.tc : Thread Cert.KernelIdeal.nD Cert.KernelIdeal.τ).loc Cert.KernelIdeal.main_arg4))) (Cert.Gine.asRow (Cert.Gine.bias2 (m ((c.tc : Thread Cert.KernelIdeal.nD Cert.KernelIdeal.τ).loc Cert.KernelIdeal.main_arg5)))) (Cert.Gine.weight2 (m ((c.tc : Thread Cert.KernelIdeal.nD Cert.KernelIdeal.τ).loc Cert.KernelIdeal.main_arg6))) (Cert.Gine.asRow (Cert.Gine.bias2 (m ((c.tc : Thread Cert.KernelIdeal.nD Cert.KernelIdeal.τ).loc Cert.KernelIdeal.main_arg7))))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  (Fold.result13 m ρ c regionValues).trans (by
    unfold Fold.feat3 Fold.feat2 Fold.feat1 Cert.Gine.network
    simp only [Cert.Gine.rowOf_eq_asRow])

/-- The run: the returned buffer ends at the network of the arguments, the arguments as launched. -/
theorem run : θ_run defs (onTc (τ := τ) (main (F := Ideal))) ⟨m, fun _ => 0, ρ⟩ (fun r => ∀ c : Dev nD,
      r.2.mem ((c.tc : Thread nD τ).loc main_v77) =
    Cert.Gine.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (Cert.Gine.weight0 (m ((c.tc : Thread Cert.KernelIdeal.nD Cert.KernelIdeal.τ).loc Cert.KernelIdeal.main_arg4))) (Cert.Gine.asRow (Cert.Gine.bias0 (m ((c.tc : Thread Cert.KernelIdeal.nD Cert.KernelIdeal.τ).loc Cert.KernelIdeal.main_arg5)))) (Cert.Gine.weight0 (m ((c.tc : Thread Cert.KernelIdeal.nD Cert.KernelIdeal.τ).loc Cert.KernelIdeal.main_arg6))) (Cert.Gine.asRow (Cert.Gine.bias0 (m ((c.tc : Thread Cert.KernelIdeal.nD Cert.KernelIdeal.τ).loc Cert.KernelIdeal.main_arg7))))
      (Cert.Gine.weight1 (m ((c.tc : Thread Cert.KernelIdeal.nD Cert.KernelIdeal.τ).loc Cert.KernelIdeal.main_arg4))) (Cert.Gine.asRow (Cert.Gine.bias1 (m ((c.tc : Thread Cert.KernelIdeal.nD Cert.KernelIdeal.τ).loc Cert.KernelIdeal.main_arg5)))) (Cert.Gine.weight1 (m ((c.tc : Thread Cert.KernelIdeal.nD Cert.KernelIdeal.τ).loc Cert.KernelIdeal.main_arg6))) (Cert.Gine.asRow (Cert.Gine.bias1 (m ((c.tc : Thread Cert.KernelIdeal.nD Cert.KernelIdeal.τ).loc Cert.KernelIdeal.main_arg7))))
      (Cert.Gine.weight2 (m ((c.tc : Thread Cert.KernelIdeal.nD Cert.KernelIdeal.τ).loc Cert.KernelIdeal.main_arg4))) (Cert.Gine.asRow (Cert.Gine.bias2 (m ((c.tc : Thread Cert.KernelIdeal.nD Cert.KernelIdeal.τ).loc Cert.KernelIdeal.main_arg5)))) (Cert.Gine.weight2 (m ((c.tc : Thread Cert.KernelIdeal.nD Cert.KernelIdeal.τ).loc Cert.KernelIdeal.main_arg6))) (Cert.Gine.asRow (Cert.Gine.bias2 (m ((c.tc : Thread Cert.KernelIdeal.nD Cert.KernelIdeal.τ).loc Cert.KernelIdeal.main_arg7))))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (Run.run_result (F := Ideal) m ρ)

end Cert.KernelIdeal.NetValue

end
-- ==== Proof.ReferenceValue.lean ====
/-
  The reference's result, read as the network.

  The reference program's result array is one composed term of its ten argument arrays: three message-passing layers
  inlined, then the readout.  Operation for operation it is the unfolding of `Cert.Gine.network` at the arguments, with
  layer l's weights and bias rows cut out of the stacked weight and bias arrays.
-/
import proofs.«168259_j50096498540960_1_alg».proof.Proof.Gen.ReferenceIdeal.Run
import proofs.«168259_j50096498540960_1_alg».proof.Proof.Network

noncomputable section

namespace Cert.ReferenceIdeal.RefValue

open Idealize.ShloMosaic Idealize.ShloMosaic.TcCoe Idealize.SL.Sem
open Cert.ReferenceIdeal Cert.ReferenceIdeal.Facts₀ Cert.Gine

set_option maxRecDepth 16384 in
/-- The reference's result is the network of its arguments. -/
theorem result_eq (m : (ℓ : Loc nD τ sig) → Buf (Elt Ideal) ℓ) (c : Dev nD) :
    Cert.ReferenceIdeal.Value.res_main_v104 (F := Ideal) m c
      = network (m ((c.tc : Thread nD τ).loc main_arg0)) (m ((c.tc : Thread nD τ).loc main_arg1))
          (m ((c.tc : Thread nD τ).loc main_arg2)) (m ((c.tc : Thread nD τ).loc main_arg3))
          (weight0 (m ((c.tc : Thread nD τ).loc main_arg4))) (asRow (bias0 (m ((c.tc : Thread nD τ).loc main_arg5))))
          (weight0 (m ((c.tc : Thread nD τ).loc main_arg6))) (asRow (bias0 (m ((c.tc : Thread nD τ).loc main_arg7))))
          (weight1 (m ((c.tc : Thread nD τ).loc main_arg4))) (asRow (bias1 (m ((c.tc : Thread nD τ).loc main_arg5))))
          (weight1 (m ((c.tc : Thread nD τ).loc main_arg6))) (asRow (bias1 (m ((c.tc : Thread nD τ).loc main_arg7))))
          (weight2 (m ((c.tc : Thread nD τ).loc main_arg4))) (asRow (bias2 (m ((c.tc : Thread nD τ).loc main_arg5))))
          (weight2 (m ((c.tc : Thread nD τ).loc main_arg6))) (asRow (bias2 (m ((c.tc : Thread nD τ).loc main_arg7))))
          (m ((c.tc : Thread nD τ).loc main_arg8)) (m ((c.tc : Thread nD τ).loc main_arg9)) := by
  unfold Cert.ReferenceIdeal.Value.res_main_v104 network readout layer nodeUpdate aggregate edgeMessage sourceRows srcColumn
    srcWords dstColumn weight0 weight1 weight2 bias0 bias1 bias2 asRow
  rfl

end Cert.ReferenceIdeal.RefValue

end
-- ==== Proof.lean ====
/-
  A three-layer graph network with edge features: the Pallas kernel against its jnp reference.

  Per layer both programs gather each edge's source-node row, form the edge message relu (x_src + e), sum the
  messages into their destination rows, and pass h = x + aggregate through relu (relu (h · W1 + b1) · W2 + b2);
  after three layers both sum the node features of each graph, multiply by the output weight and add the output
  bias.  The kernel computes the edge message and the node update in two pallas_calls per layer (blocks of 9600
  edges and of 5000 nodes), its matrix products on operands rounded to bf16 — a rounding that is the identity on
  the extended reals — and does the gather, the scatter-add and the readout on the host, exactly as the
  reference does.  So at the ideal values both programs compute ONE function of the ten arguments, `Cert.Gine.network`:

    * the kernel's run names its result as the fold through @main (Proof/KernelRun.lean), the fold read backwards is
      the readout of three layers of region outputs (Proof/FoldKeep.lean, FoldHost.lean, FoldChain.lean), each region's output
      array is its stage of the whole arrays (Proof/Message0/2/4.lean from the pointwise body; Proof/UpdateRegion1/3/5.lean
      from the two matrix products read entry by entry, Proof/UpdatePoint.lean, UpdatePayload.lean, UpdateReference.lean), and
      the kernel's bias rows are the network's (Proof/BiasRow.lean): Proof/KernelValue.lean;
    * the reference's generated run states its result as one composed term, which is the network unfolded
      (Proof/ReferenceValue.lean).

  No law of arithmetic beyond reading each operation at an index is needed: the two sides sum the same terms in the
  same order.  The three frames are the generated ones; the ideal pass rewrote nothing, so `preserves` is trivial.
-/
import proofs.«168259_j50096498540960_1_alg».proof.Defs
import proofs.«168259_j50096498540960_1_alg».proof.Proof.Gen.Kernel
import proofs.«168259_j50096498540960_1_alg».proof.Proof.Gen.Kernel.Skeleton
import proofs.«168259_j50096498540960_1_alg».proof.Proof.Gen.Kernel.Launch
import proofs.«168259_j50096498540960_1_alg».proof.Proof.Gen.Kernel.Points
import proofs.«168259_j50096498540960_1_alg».proof.Proof.Gen.Kernel.Frame
import proofs.«168259_j50096498540960_1_alg».proof.Proof.Gen.KernelIdeal
import proofs.«168259_j50096498540960_1_alg».proof.Proof.Gen.KernelIdeal.Skeleton
import proofs.«168259_j50096498540960_1_alg».proof.Proof.Gen.KernelIdeal.Launch
import proofs.«168259_j50096498540960_1_alg».proof.Proof.Gen.KernelIdeal.Points
import proofs.«168259_j50096498540960_1_alg».proof.Proof.Gen.KernelIdeal.Frame
import proofs.«168259_j50096498540960_1_alg».proof.Proof.Gen.ReferenceIdeal
import proofs.«168259_j50096498540960_1_alg».proof.Proof.Gen.Pre_finite_inputs
import proofs.«168259_j50096498540960_1_alg».proof.Proof.KernelValue
import proofs.«168259_j50096498540960_1_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the ten arguments both programs end with the network of those arguments. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.RefValue.result_eq m' c, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
